-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S8192x128_S8192_d1 : S8192x128.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := mulf main_arg0 main_arg0
  let main_cst_0 : FVec F S_ .f32 := constant S_ .f32 0x00000000#32
  let main_v5 : FVec F S8192 .f32 := (fun x v => Host.reduceAdd x v reducesTo_S8192x128_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024 : Shape := ⟨1, ![1024]⟩
abbrev S512 : Shape := ⟨1, ![512]⟩
abbrev S512x1 : Shape := ⟨2, ![512, 1]⟩
abbrev S128x512 : Shape := ⟨2, ![128, 512]⟩
abbrev S1024x512 : Shape := ⟨2, ![1024, 512]⟩
abbrev S_ : Shape := ⟨0, ![]⟩

abbrev nBuf : Space → Nat
  | .hbm => 27
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  reduces_S1024x128_S1024 : S1024x128.Reduces [1] S1024
  shapeCasts_S1024_S1024x1 : S1024.ShapeCasts S1024x1
  broadcasts_S1024x1_S1024x128 : S1024x1.Broadcasts S1024x128
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  transposes_S512x128_p1_0_S128x512 : S512x128.Transposes [1, 0] S128x512
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  natLt_1_32 : 1 < 32
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i32⟩
  | .hbm, ⟨35, _⟩ => ⟨S_, .i32⟩
  | .hbm, ⟨36, _⟩ => ⟨S8192, .i32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S8192, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_call2_v0 : Ref sig .tc := ⟨.hbm, 39, rfl⟩
abbrev main_call2_v1 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_call4_v0 : Ref sig .tc := ⟨.hbm, 63, rfl⟩
abbrev main_call4_v1 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.PreFacts.lean ====
/-
  The precondition decoded. The printed predicate is the conjunction of two reductions by "and":
  every |x| is below +infinity, and every row's sum of squares is above zero. From the claim that it
  evaluates to 1 we read: every entry of x is a real number, and each row's sum of squares is positive —
  first on the extended reals, in the form the host's float sum takes at the ideal values (the initial
  value plus the sum over the row), then on the reals.
-/
import proofs.«173541_j78228534329348_1_alg».proof.Defs
import proofs.«173541_j78228534329348_1_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-! ## Words and comparisons -/

theorem ofBool_eq_one (b : Bool) : BitVec.ofBool b = 1#1 ↔ b = true := by cases b <;> decide

/-- An ordered "less than" on the extended reals that answers 1 is the strict order. -/
theorem cmp_olt_eq_one (a b : EReal) : Ideal.cmp .olt a b = 1#1 ↔ a < b := by
  simp only [Ideal.cmp, ofBool_eq_one, decide_eq_true_eq]

/-- An ordered "greater than" that answers 1 is the strict order, reversed. -/
theorem cmp_ogt_eq_one (a b : EReal) : Ideal.cmp .ogt a b = 1#1 ↔ b < a := by
  simp only [Ideal.cmp, ofBool_eq_one, decide_eq_true_eq]

/-- The word 0x7F800000 denotes +infinity. -/
theorem inf_word : Ideal.ofBits .f32 0x7F800000#32 = ⊤ := by simp [Ideal.ofBits, Ideal.ieee]

/-- An extended real whose absolute value max a (-a) is below +infinity is a real. -/
theorem real_of_abs_lt_top (a : EReal) (h : max a (-a) < ⊤) : ∃ r : ℝ, a = (r : EReal) := by
  induction a using EReal.rec with
  | bot => simp at h
  | top => simp at h
  | coe r => exact ⟨r, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two conjuncts -/

section
variable [Facts] (x : FVec Ideal S8192x128 .f32) (lab : IVec S8192 32)

/-- The first conjunct at an index: |x i| is below +infinity. -/
theorem abs_lt_top (h : fn (F := Ideal) x lab = fun _ => 1#1) (i : S8192x128.Idx) : max (x i) (-(x i)) < ⊤ := by
  have e := congrFun h ix0
  dsimp only [fn] at e
  obtain ⟨e1, -⟩ := IntOp.andi_eq_one.1 e
  have k1 := Host.reduce_andi_all _ _ _ _ _ e1 i
  have k2 : Ideal.cmp .olt (max (x i) (-(x i))) (Ideal.ofBits .f32 0x7F800000#32) = 1#1 := k1
  rw [inf_word, cmp_olt_eq_one] at k2
  exact k2

/-- (a) Every entry of x is a real number. -/
theorem finite (h : fn (F := Ideal) x lab = fun _ => 1#1) (i : S8192x128.Idx) : ∃ a : ℝ, x i = (a : EReal) :=
  real_of_abs_lt_top _ (abs_lt_top x lab h i)

/-- The second conjunct at a row, as the host's float sum stands in the printed predicate. -/
theorem row_gt (h : fn (F := Ideal) x lab = fun _ => 1#1) (j : S8192.Idx) :
    Ideal.ofBits .f32 0x00000000#32
      < Ideal.hostReduceAdd Facts.reducesTo_S8192x128_S8192_d1 (mulf x x) (Ideal.ofBits .f32 0x00000000#32) j := by
  have e := congrFun h ix0
  dsimp only [fn] at e
  obtain ⟨-, e2⟩ := IntOp.andi_eq_one.1 e
  have k1 := Host.reduce_andi_all _ _ _ _ _ e2 j
  have k2 : Ideal.cmp .ogt
      (Ideal.hostReduceAdd Facts.reducesTo_S8192x128_S8192_d1 (mulf x x) (Ideal.ofBits .f32 0x00000000#32) j)
      (Ideal.ofBits .f32 0x00000000#32) = 1#1 := k1
  rw [cmp_ogt_eq_one] at k2
  exact k2

/-- The host's sum over a row at the ideal values: the initial value plus the sum over the row's 128 entries. -/
theorem row_sum (y : FVec Ideal S8192x128 .f32) (init : EReal) (r : Fin 8192) :
    Ideal.hostReduceAdd Facts.reducesTo_S8192x128_S8192_d1 y init (ix1 r) = init + ∑ d : Fin 128, y (ix2 r d) := by
  rw [Ideal.hostReduceAdd_single Facts.reducesTo_S8192x128_S8192_d1 (by decide)]
  refine congrArg (_ + ·) (Finset.sum_congr rfl fun k _ => ?_)
  exact congrArg y (funext fun a => Fin.ext (by match a with | ⟨0, _⟩ => rfl | ⟨1, _⟩ => rfl))

/-- (b) Each row's sum of squares is above zero, with the literal zero word as the sum's initial value. -/
theorem row_pos_word (h : fn (F := Ideal) x lab = fun _ => 1#1) (r : Fin 8192) :
    (0 : EReal) < Ideal.ofBits .f32 0x00000000#32 + ∑ d : Fin 128, x (ix2 r d) * x (ix2 r d) := by
  have k := row_gt x lab h (ix1 r)
  rw [row_sum, Ideal.ofBits_zero_f32] at k
  rw [Ideal.ofBits_zero_f32]
  exact k

/-- (b) The same with the initial value written 0. -/
theorem row_pos (h : fn (F := Ideal) x lab = fun _ => 1#1) (r : Fin 8192) :
    (0 : EReal) < 0 + ∑ d : Fin 128, x (ix2 r d) * x (ix2 r d) := by
  have k := row_pos_word x lab h r
  rwa [Ideal.ofBits_zero_f32] at k

/-- (b) The same without the initial value. -/
theorem row_pos' (h : fn (F := Ideal) x lab = fun _ => 1#1) (r : Fin 8192) :
    (0 : EReal) < ∑ d : Fin 128, x (ix2 r d) * x (ix2 r d) := by
  have k := row_pos x lab h r
  rwa [zero_add] at k

/-- On the reals: if a r d is the real that x (r, d) is, each row's sum of squares of a is positive. -/
theorem row_pos_real (h : fn (F := Ideal) x lab = fun _ => 1#1) (a : Fin 8192 → Fin 128 → ℝ)
    (ha : ∀ r d, x (ix2 r d) = (a r d : EReal)) (r : Fin 8192) : 0 < ∑ d : Fin 128, a r d * a r d := by
  have k := row_pos' x lab h r
  simp only [ha, ← EReal.coe_mul, ← coe_sum] at k
  exact_mod_cast k

/-- The same with squares written as powers. -/
theorem row_pos_real_sq (h : fn (F := Ideal) x lab = fun _ => 1#1) (a : Fin 8192 → Fin 128 → ℝ)
    (ha : ∀ r d, x (ix2 r d) = (a r d : EReal)) (r : Fin 8192) : 0 < ∑ d : Fin 128, a r d ^ 2 := by
  have k := row_pos_real x lab h a ha r
  simpa only [sq] using k

/-- Both facts at once: a real matrix that x is, with positive row sums of squares. -/
theorem exists_real (h : fn (F := Ideal) x lab = fun _ => 1#1) :
    ∃ a : Fin 8192 → Fin 128 → ℝ, (∀ r d, x (ix2 r d) = (a r d : EReal)) ∧ ∀ r, 0 < ∑ d : Fin 128, a r d * a r d := by
  choose a ha using fun (r : Fin 8192) (d : Fin 128) => finite x lab h (ix2 r d)
  exact ⟨a, ha, row_pos_real x lab h a ha⟩

end

end Cert.PreFacts

end
-- ==== Proof.RefSide.lean ====
/-
  The reference side of the certificate, read index by index at the ideal instance (floats are extended reals,
  every operation exact).

  For an embedding array `x : [8192, 128]` and a label array `lab : [8192]` the reference computes, for each row `r`,
    ss r      = Σ_d x[r,d]²                                  (the row's sum of squares)
    e r d     = x[r,d] / sqrt (ss r)                         (the row, normalised)
    sim r c   = Σ_d e[r,d] · e[c,d]                          (the cosine similarity; the division by the literal 1.0 is the identity)
    denom r   = Σ_c (if r = c then 0 else exp (sim r c))     (every off-diagonal term)
    possum r  = Σ_c (if lab r = lab c ∧ r ≠ c then sim r c else 0)
    cnt r     = the number of c with lab r = lab c ∧ r ≠ c, summed as 32-bit words and then converted
    loss r    = -(possum r - cnt r · log (denom r))
  and then a scalar tail of the loss vector and the labels (`Tail`): the class-0 rows' mean plus the other rows' sum.
  This file names those functions, proves that the reference's per-row loss stage is `lossR` at every row
  (`loss_apply`), and that the run's result term is `Tail` of the per-row loss vector (`result_eq`).
-/
import proofs.«173541_j78228534329348_1_alg».proof.Proof.Gen.ReferenceIdeal.Read
import Idealize.ShloMosaic.Lib.IdealHost
import Idealize.ShloMosaic.Lib.Affine

noncomputable section

namespace Cert.ReferenceIdeal.RefSide

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open scoped BigOperators

/-! ## The functions -/

/-- A row's sum of squares. -/
def ssR (x : FVec Ideal S8192x128 .f32) (r : Fin 8192) : EReal :=
  ∑ d : Fin 128, x (ix2 r d) * x (ix2 r d)

/-- A row normalised: each entry over the square root of the row's sum of squares. -/
def eR (x : FVec Ideal S8192x128 .f32) (r : Fin 8192) (d : Fin 128) : EReal :=
  Ideal.div (x (ix2 r d)) (Ideal.sqrt (ssR x r))

/-- The similarity of two rows: the inner product of the normalised rows. -/
def simR (x : FVec Ideal S8192x128 .f32) (r c : Fin 8192) : EReal :=
  ∑ d : Fin 128, eR x r d * eR x c d

/-- A row's denominator: the exponentials of its similarities to every other row. -/
def denomR (x : FVec Ideal S8192x128 .f32) (r : Fin 8192) : EReal :=
  ∑ c : Fin 8192, if r = c then 0 else Ideal.exp (simR x r c)

/-! ## Small facts about words and division -/

/-- Division by one is the identity on every extended real. -/
theorem div_one (y : EReal) : Ideal.div y 1 = y := by
  unfold Ideal.div
  rw [if_neg one_ne_zero, inv_one, mul_one]

/-- Two row numbers are equal exactly when their 32-bit words are. -/
theorem ofNat_inj (r c : Fin 8192) : BitVec.ofNat 32 r.val = BitVec.ofNat 32 c.val ↔ r = c := by
  constructor
  · intro h
    have := congrArg BitVec.toNat h
    simp only [BitVec.toNat_ofNat] at this
    have hr := r.isLt; have hc := c.isLt
    exact Fin.ext (by omega)
  · rintro rfl; rfl

/-- An equality comparison of words is the bit of the equality. -/
theorem cmpi_eq_ite {w : Nat} (a b : BitVec w) : IntOp.cmpi .eq a b = if a = b then 1#1 else 0#1 := by
  by_cases h : a = b
  · rw [if_pos h]; exact IntOp.cmpi_eq.mpr h
  · rw [if_neg h]; exact eq_zero_of_ne_one (fun h1 => h (IntOp.cmpi_eq.mp h1))

/-! ## Index equations: the generated index functions at coordinates -/

theorem idx_ss (r : Fin 8192) (k : Fin 128) : idx_main_call0_v1 (ix1 r) k = ix2 r k :=
  funext fun a => Fin.ext (by match a with | ⟨0, _⟩ => rfl | ⟨1, _⟩ => rfl)

theorem idx_norm (r : Fin 8192) (d : Fin 128) : idx_main_call0_v2 (idx_main_v1 (ix2 r d)) = ix1 r :=
  funext fun a => Fin.ext (by match a with | ⟨0, _⟩ => rfl)

theorem idx_dot_l (r c : Fin 8192) (k : Fin 128) : lidx_main_v4 (ix2 r c) k = ix2 r k :=
  funext fun a => Fin.ext (by match a with | ⟨0, _⟩ => rfl | ⟨1, _⟩ => rfl)

theorem idx_dot_r (r c : Fin 8192) (k : Fin 128) : idx_main_v3 (ridx_main_v4 (ix2 r c) k) = ix2 c k :=
  funext fun a => Fin.ext (by match a with | ⟨0, _⟩ => rfl | ⟨1, _⟩ => rfl)

/-! ## The stages, one lemma per operation that is not elementwise -/

/-- The row reduce: the stage of the sum of squares at a row. -/
theorem ss_apply (x : FVec Ideal S8192x128 .f32) (r : Fin 8192) :
    val_main_call0_v1 (F := Ideal) x (ix1 r) = ssR x r := by
  rw [val_main_call0_v1_apply, val_main_call0_cst_apply, Ideal.ofBits_def, Ideal.ofBits_zero_f32, zero_add]
  refine Finset.sum_congr rfl fun k _ => ?_
  rw [val_main_call0_v0_apply, idx_ss, Ideal.mulf_def]

/-- The norm broadcast along the row: the divisor at an entry. -/
theorem norm_apply (x : FVec Ideal S8192x128 .f32) (r : Fin 8192) (d : Fin 128) :
    val_main_v1 (F := Ideal) x (ix2 r d) = Ideal.sqrt (ssR x r) := by
  rw [val_main_v1_apply, val_main_v0_apply, val_main_call0_v2_apply, idx_norm, ss_apply, Ideal.hostUnary_sqrt_def]

/-- The normalised array at an entry. -/
theorem e_apply (x : FVec Ideal S8192x128 .f32) (r : Fin 8192) (d : Fin 128) :
    val_main_v2 (F := Ideal) x (ix2 r d) = eR x r d := by
  rw [val_main_v2_apply, norm_apply, Ideal.hostDivf_def]; rfl

/-- The product of the normalised array with its transpose, at an entry. -/
theorem dot_apply (x : FVec Ideal S8192x128 .f32) (r c : Fin 8192) :
    val_main_v4 (F := Ideal) x (ix2 r c) = ∑ d : Fin 128, eR x r d * eR x c d := by
  rw [val_main_v4_apply]
  refine Finset.sum_congr rfl fun k _ => ?_
  rw [val_main_v3_apply, idx_dot_l, idx_dot_r, e_apply, e_apply]

/-- The similarity stage at an entry: the division by the literal one is the identity. -/
theorem sim_apply (x : FVec Ideal S8192x128 .f32) (r c : Fin 8192) :
    val_main_v6 (F := Ideal) x (ix2 r c) = simR x r c := by
  rw [val_main_v6_apply, dot_apply, val_main_v5_apply, val_main_cst_apply, Ideal.hostDivf_def, Ideal.ofBits_def,
    Ideal.ofBits_one_f32, div_one]; rfl

/-! ## The mask, the sums along a row and the loss -/

/-- Two rows are a positive pair: the same label and not the same row. -/
abbrev posR (lab : IVec S8192 32) (r c : Fin 8192) : Prop := lab (ix1 r) = lab (ix1 c) ∧ r ≠ c

/-- The positive-pair mask as a bit. -/
def maskR (lab : IVec S8192 32) (r c : Fin 8192) : BitVec 1 := if posR lab r c then 1#1 else 0#1

/-- The positive-pair mask as an array of bits. -/
def maskV (lab : IVec S8192 32) : IVec S8192x8192 1 := fun i => maskR lab (i 0) (i 1)

/-- A row's sum of similarities over its positive pairs. -/
def possumR (x : FVec Ideal S8192x128 .f32) (lab : IVec S8192 32) (r : Fin 8192) : EReal :=
  ∑ c : Fin 8192, if posR lab r c then simR x r c else 0

/-- The number of a row's positive pairs as the reference has it: the mask's bits widened to 32-bit words and
    summed along the row as words. -/
def cntWordR (lab : IVec S8192 32) : IVec S8192 32 :=
  Host.reduce IntOp.addi (extui 32 (maskV lab) natLt_1_32) (constantI S_ 32 0#32) reducesTo_S8192x8192_S8192_d1 h_S_

/-- That count converted (as a signed word) to a float. -/
def cntR (lab : IVec S8192 32) (r : Fin 8192) : EReal :=
  FloatOps.sitofp (F := Ideal) .f32 (cntWordR lab (ix1 r))

/-- A row's loss. -/
def lossR (x : FVec Ideal S8192x128 .f32) (lab : IVec S8192 32) (r : Fin 8192) : EReal :=
  -(possumR x lab r - cntR lab r * Ideal.log (denomR x r))

theorem idx_row14 (r k : Fin 8192) : idx_main_v14 (ix1 r) k = ix2 r k :=
  funext fun a => Fin.ext (by match a with | ⟨0, _⟩ => rfl | ⟨1, _⟩ => rfl)

theorem idx_row26 (r k : Fin 8192) : idx_main_v26 (ix1 r) k = ix2 r k :=
  funext fun a => Fin.ext (by match a with | ⟨0, _⟩ => rfl | ⟨1, _⟩ => rfl)

theorem idx_lab_r (r c : Fin 8192) : idx_main_v15 (idx_main_v17 (ix2 r c)) = ix1 r :=
  funext fun a => Fin.ext (by match a with | ⟨0, _⟩ => rfl)

theorem idx_lab_c (r c : Fin 8192) : idx_main_v16 (idx_main_v18 (ix2 r c)) = ix1 c :=
  funext fun a => Fin.ext (by match a with | ⟨0, _⟩ => rfl)

/-- The two iotas compared: the bit of "the row is the column". -/
theorem eye_apply (r c : Fin 8192) :
    val_main_v12 (F := Ideal) (ix2 r c) = if r = c then 1#1 else 0#1 := by
  rw [val_main_v12_apply, val_main_v11_apply, val_main_v8_apply, val_main_v10_apply, val_main_c_apply, val_main_v9_apply,
    cmpi_eq_ite]
  show (if IntOp.addi (BitVec.ofNat 32 r.val) 0#32 = BitVec.ofNat 32 c.val then 1#1 else 0#1) = _
  rw [show IntOp.addi (BitVec.ofNat 32 r.val) 0#32 = BitVec.ofNat 32 r.val from BitVec.add_zero _]
  simp only [ofNat_inj]

/-- The denominator stage at a row. -/
theorem denom_apply (x : FVec Ideal S8192x128 .f32) (r : Fin 8192) :
    val_main_v14 (F := Ideal) x (ix1 r) = denomR x r := by
  unfold denomR
  rw [val_main_v14_apply, val_main_cst_1_apply, Ideal.ofBits_def, Ideal.ofBits_zero_f32, zero_add]
  refine Finset.sum_congr rfl fun k _ => ?_
  rw [idx_row14, val_main_v13_apply, eye_apply, val_main_call1_v1_apply, val_main_call1_v0_apply, val_main_cst_0_apply,
    val_main_v7_apply, sim_apply, Ideal.ofBits_def, Ideal.ofBits_zero_f32, Ideal.hostUnary_exp_def]
  by_cases h : r = k
  · rw [if_pos h, if_pos h, select_one]
  · rw [if_neg h, if_neg h, select_zero]

/-- The labels broadcast along rows and along columns, compared, and the diagonal removed: the mask bit. -/
theorem mask_apply (lab : IVec S8192 32) (r c : Fin 8192) :
    val_main_v21 (F := Ideal) lab (ix2 r c) = maskR lab r c := by
  rw [val_main_v21_apply, val_main_v19_apply, val_main_v20_apply, eye_apply, val_main_v17_apply, val_main_v15_apply,
    val_main_v18_apply, val_main_v16_apply, idx_lab_r, idx_lab_c, cmpi_eq_ite]
  unfold maskR
  by_cases h1 : lab (ix1 r) = lab (ix1 c) <;> by_cases h2 : r = c
  · rw [if_pos h1, if_pos h2, if_neg (fun h => h.2 h2)]; decide
  · rw [if_pos h1, if_neg h2, if_pos ⟨h1, h2⟩]; decide
  · rw [if_neg h1, if_pos h2, if_neg (fun h => h1 h.1)]; decide
  · rw [if_neg h1, if_neg h2, if_neg (fun h => h1 h.1)]; decide

/-- The mask stage is the mask array. -/
theorem maskV_eq (lab : IVec S8192 32) : val_main_v21 (F := Ideal) lab = maskV lab := by
  funext i
  obtain ⟨r, c, rfl⟩ : ∃ (r c : Fin 8192), i = ix2 r c := ⟨i 0, i 1, eq_ix2 i⟩
  rw [mask_apply]; rfl

/-- The positive-pair sum stage at a row. -/
theorem possum_apply (x : FVec Ideal S8192x128 .f32) (lab : IVec S8192 32) (r : Fin 8192) :
    val_main_v26 (F := Ideal) x lab (ix1 r) = possumR x lab r := by
  unfold possumR
  rw [val_main_v26_apply, val_main_cst_4_apply, Ideal.ofBits_def, Ideal.ofBits_zero_f32, zero_add]
  refine Finset.sum_congr rfl fun k _ => ?_
  rw [idx_row26, val_main_v25_apply, mask_apply, sim_apply, val_main_call2_v1_apply, val_main_call2_v0_apply,
    val_main_cst_3_apply, Ideal.ofBits_def, Ideal.ofBits_zero_f32]
  unfold maskR
  by_cases h : posR lab r k
  · rw [if_pos h, if_pos h, select_one]
  · rw [if_neg h, if_neg h, select_zero]

/-- The count stage at a row. -/
theorem cnt_apply (lab : IVec S8192 32) (r : Fin 8192) :
    val_main_v24 (F := Ideal) lab (ix1 r) = cntR lab r := by
  rw [val_main_v24_apply]
  unfold cntR cntWordR val_main_v23 val_main_v22 val_main_c_2
  rw [maskV_eq]

/-- The reference's per-row loss stage at a row is the row's loss. -/
theorem loss_apply (x : FVec Ideal S8192x128 .f32) (lab : IVec S8192 32) (r : Fin 8192) :
    val_main_v30 (F := Ideal) x lab (ix1 r) = lossR x lab r := by
  rw [val_main_v30_apply, val_main_v29_apply, val_main_v28_apply, val_main_v27_apply, possum_apply, cnt_apply, denom_apply,
    Ideal.hostNegf_def, Ideal.negf_def, Ideal.subf_def, Ideal.mulf_def, Ideal.hostUnary_log_def]
  rfl

/-! ## The scalar tail, and the result -/

/-- The reference's last operations as one function of a per-row loss vector and the labels: the rows of class 0
    (label word equal to 0) summed and divided by their number (counted as 32-bit words, then converted), plus
    the sum of the other rows. -/
def Tail (loss : FVec Ideal S8192 .f32) (lab : IVec S8192 32) : FVec Ideal S_ .f32 :=
  addf
    (Host.divf (F := Ideal)
      (Host.reduceAdd (F := Ideal)
        (select (cmpi .eq lab (broadcastInDim S8192 ![] bcast_S_S8192 (constantI S_ 32 0#32))) loss
          (broadcastInDim S8192 ![] bcast_S_S8192 (id (constant (F := Ideal) S_ .f32 0x00000000#32))))
        (constant (F := Ideal) S_ .f32 0x00000000#32) reducesTo_S8192_S_d0 h_S_)
      (sitofp (F := Ideal) .f32
        (Host.reduce IntOp.addi
          (extui 32 (cmpi .eq lab (broadcastInDim S8192 ![] bcast_S_S8192 (constantI S_ 32 0#32))) natLt_1_32)
          (constantI S_ 32 0#32) reducesTo_S8192_S_d0 h_S_)))
    (Host.reduceAdd (F := Ideal)
      (select (cmpi .eq lab (broadcastInDim S8192 ![] bcast_S_S8192 (constantI S_ 32 0#32)))
        (broadcastInDim S8192 ![] bcast_S_S8192 (id (constant (F := Ideal) S_ .f32 0x00000000#32))) loss)
      (constant (F := Ideal) S_ .f32 0x00000000#32) reducesTo_S8192_S_d0 h_S_)

/-- The last stage is the tail of the per-row loss stage. -/
theorem tail_eq (x : FVec Ideal S8192x128 .f32) (lab : IVec S8192 32) :
    val_main_v41 (F := Ideal) x lab = Tail (val_main_v30 (F := Ideal) x lab) lab := by
  unfold Tail val_main_v41 val_main_v38 val_main_v40 val_main_v37 val_main_v39 val_main_v36 val_main_v35 val_main_v34
    val_main_v33 val_main_v32 val_main_v31 val_main_c_5 val_main_c_6 val_main_call3_v1 val_main_call3_v0 val_main_call4_v1
    val_main_call4_v0 val_main_cst_7 val_main_cst_8 val_main_cst_9 val_main_cst_10
  rfl

/-- The per-row loss stage is the vector of the rows' losses. -/
theorem loss_vec (x : FVec Ideal S8192x128 .f32) (lab : IVec S8192 32) :
    val_main_v30 (F := Ideal) x lab = fun i => lossR x lab (i 0) := by
  funext i
  obtain ⟨r, rfl⟩ : ∃ r : Fin 8192, i = ix1 r := ⟨i 0, eq_ix1 i⟩
  exact loss_apply x lab r

/-- The last stage is the tail of the vector of the rows' losses. -/
theorem result_val_eq (x : FVec Ideal S8192x128 .f32) (lab : IVec S8192 32) :
    val_main_v41 (F := Ideal) x lab = Tail (fun i => lossR x lab (i 0)) lab := by
  rw [tail_eq, loss_vec]

/-- The run's result term is the tail of the vector of the rows' losses of the argument arrays. -/
theorem result_eq (m : (ℓ : Loc nD τ sig) → Buf (Elt Ideal) ℓ) (c : Dev nD) :
    Cert.ReferenceIdeal.Value.res_main_v41 (F := Ideal) m c
      = Tail (fun i => lossR (m ((c.tc : Thread nD τ).loc main_arg0)) (m ((c.tc : Thread nD τ).loc main_arg1)) (i 0))
          (m ((c.tc : Thread nD τ).loc main_arg1)) := by
  rw [val_main_v41_eq, result_val_eq]

end Cert.ReferenceIdeal.RefSide

end
-- ==== Proof.Algebra.lean ====
/-
  Algebra on the extended reals for the two programs' meeting points, over abstract data: x · rsqrt s against
  x / sqrt s above zero; division by the literal one; a sum over 8192 columns taken in sixteen blocks of 512, and the
  accumulator that adds a block at a time; the integer count of one-bit words converted to a float against the float
  sum of the converted bits; and zero minus y against minus y. Nothing here names a program.
-/
import Idealize.ShloMosaic.PureOps.Ideal
import Idealize.ShloMosaic.PureOps.Ideal.Laws
import Idealize.ShloMosaic.PureOps.Reduce
import Mathlib.Data.BitVec
import Mathlib.Data.EReal.Basic
import Mathlib.Algebra.BigOperators.Fin

noncomputable section

open scoped BigOperators

namespace Cert.Algebra

open Idealize.ShloMosaic

/-! ## (1) x · rsqrt s is x / sqrt s above zero -/

/-- Above zero the ideal reciprocal square root of a real is the real 1 / √s. -/
theorem rsqrt_pos (s : ℝ) (hs : 0 < s) : Ideal.rsqrt (s : EReal) = (((Real.sqrt s)⁻¹ : ℝ) : EReal) := by
  rw [Ideal.rsqrt_coe, if_neg (not_lt.mpr hs.le), if_neg hs.ne']

/-- Above zero the ideal square root of a real is the real √s. -/
theorem sqrt_pos (s : ℝ) (hs : 0 < s) : Ideal.sqrt (s : EReal) = ((Real.sqrt s : ℝ) : EReal) := by
  rw [Ideal.sqrt_coe, if_neg (not_lt.mpr hs.le)]

/-- For a positive real s and ANY extended real x: x times the reciprocal square root of s is x divided by
    the square root of s. Both sides are x · (1 / √s). -/
theorem unit_eq (x : EReal) (s : ℝ) (hs : 0 < s) :
    x * Ideal.rsqrt (s : EReal) = Ideal.div x (Ideal.sqrt (s : EReal)) := by
  rw [rsqrt_pos s hs, sqrt_pos s hs, Ideal.div_coe (Real.sqrt_pos.mpr hs).ne' x, one_div]

/-- The same for an extended real ss known to be the positive real s. -/
theorem unit_eq_of_eq (x ss : EReal) (s : ℝ) (hs : 0 < s) (e : ss = (s : EReal)) :
    x * Ideal.rsqrt ss = Ideal.div x (Ideal.sqrt ss) := by
  subst e; exact unit_eq x s hs

/-- The same for an extended real ss strictly between zero and +infinity. -/
theorem unit_eq_of_pos (x ss : EReal) (h0 : 0 < ss) (ht : ss ≠ ⊤) :
    x * Ideal.rsqrt ss = Ideal.div x (Ideal.sqrt ss) := by
  induction ss using EReal.rec with
  | bot => exact absurd h0 (not_lt.mpr bot_le)
  | top => exact absurd rfl ht
  | coe s => exact unit_eq x s (EReal.coe_pos.mp h0)

/-- The same through the float fields, as a kernel's `mulf x (rsqrt ss)` and a host's `x / sqrt ss` unfold. -/
theorem unit_eq_fields (x ss : Ideal .f32) (s : ℝ) (hs : 0 < s) (e : ss = (s : EReal)) :
    FloatOps.mulf x (FloatOps.rsqrt ss) = FloatOps.hostDivf x (FloatOps.hostUnary .sqrt ss) :=
  unit_eq_of_eq x ss s hs e

/-- The value on the reals: a · rsqrt s = a / √s. -/
theorem unit_val (a s : ℝ) (hs : 0 < s) :
    (a : EReal) * Ideal.rsqrt (s : EReal) = ((a / Real.sqrt s : ℝ) : EReal) := by
  rw [rsqrt_pos s hs, ← EReal.coe_mul, div_eq_mul_inv]

/-- … and the quotient's. -/
theorem unit_val' (a s : ℝ) (hs : 0 < s) :
    Ideal.div (a : EReal) (Ideal.sqrt (s : EReal)) = ((a / Real.sqrt s : ℝ) : EReal) := by
  rw [← unit_eq (a : EReal) s hs, unit_val a s hs]

/-! ## (2) division by the literal one -/

/-- The word 0x3F800000 denotes 1. -/
theorem one_word : Ideal.ofBits .f32 0x3F800000#32 = 1 := by
  simp [Ideal.ofBits, Ideal.ieee, -EReal.coe_mul]; norm_num

/-- The ideal quotient of any extended real by 1 is itself. -/
theorem div_one (y : EReal) : Ideal.div y 1 = y := by
  have h := Ideal.div_coe (y := (1 : ℝ)) one_ne_zero y
  rw [EReal.coe_one] at h
  rw [h, one_div, inv_one, EReal.coe_one, mul_one]

/-- … by the literal word of 1 likewise. -/
theorem div_one_word (y : EReal) : Ideal.div y (Ideal.ofBits .f32 0x3F800000#32) = y := by
  rw [one_word, div_one]

/-- … and through the host's division field. -/
theorem hostDivf_one_word (y : Ideal .f32) : FloatOps.hostDivf y (FloatOps.ofBits (F := Ideal) .f32 0x3F800000#32) = y :=
  div_one_word y

/-! ## (5) zero minus y is minus y -/

/-- On the extended reals 0 - y = -y, at the infinities too. -/
theorem neg_eq (y : EReal) : (0 : EReal) - y = -y := by
  rw [sub_eq_add_neg, zero_add]

/-- … with the zero written as the literal zero word. -/
theorem neg_eq_word (y : EReal) : Ideal.ofBits .f32 0x00000000#32 - y = -y := by
  rw [Ideal.ofBits_zero_f32, neg_eq]

/-- … and through the float fields: a kernel's `subf 0 y` is a host's negation. -/
theorem subf_zero_word (y : Ideal .f32) :
    FloatOps.subf (FloatOps.ofBits (F := Ideal) .f32 0x00000000#32) y = FloatOps.negf y :=
  neg_eq_word y

/-! ## (3) a sum over 8192 columns in 16 blocks of 512 -/

/-- Column l of block j. -/
def col (j : Fin 16) (l : Fin 512) : Fin 8192 := ⟨512 * j.val + l.val, by omega⟩

@[simp] theorem col_val (j : Fin 16) (l : Fin 512) : (col j l).val = 512 * j.val + l.val := rfl

/-- The columns are the pairs (block, column in the block). -/
def colEquiv : Fin 16 × Fin 512 ≃ Fin 8192 where
  toFun p := col p.1 p.2
  invFun c := (⟨c.val / 512, by omega⟩, ⟨c.val % 512, by omega⟩)
  left_inv p := by
    obtain ⟨j, l⟩ := p
    refine Prod.ext (Fin.ext ?_) (Fin.ext ?_)
    · show (512 * j.val + l.val) / 512 = j.val
      omega
    · show (512 * j.val + l.val) % 512 = l.val
      omega
  right_inv c := Fin.ext (by show 512 * (c.val / 512) + c.val % 512 = c.val; omega)

section Blocks
variable {M : Type*} [AddCommMonoid M] (f : Fin 8192 → M)

/-- The sum over all columns is the sum over the blocks of the sums within each block. -/
theorem sum_blocks : ∑ j : Fin 16, ∑ l : Fin 512, f (col j l) = ∑ c : Fin 8192, f c := by
  rw [← Fintype.sum_prod_type']
  exact Equiv.sum_comp colEquiv f

/-- The same with the column written out. -/
theorem sum_blocks' :
    ∑ j : Fin 16, ∑ l : Fin 512, f ⟨512 * j.val + l.val, by omega⟩ = ∑ c : Fin 8192, f c :=
  sum_blocks f

/-- The sum over the first n blocks. -/
def pre (n : ℕ) : M := ∑ j ∈ Finset.univ.filter (fun j : Fin 16 => j.val < n), ∑ l : Fin 512, f (col j l)

theorem pre_zero : pre f 0 = 0 := by
  unfold pre
  rw [Finset.filter_false_of_mem (fun j _ => Nat.not_lt_zero _), Finset.sum_empty]

/-- One more block. -/
theorem pre_succ (j : Fin 16) : pre f (j.val + 1) = pre f j.val + ∑ l : Fin 512, f (col j l) := by
  unfold pre
  have hs : (Finset.univ.filter fun i : Fin 16 => i.val < j.val + 1)
      = insert j (Finset.univ.filter fun i : Fin 16 => i.val < j.val) := by
    ext i
    simp only [Finset.mem_filter, Finset.mem_univ, true_and, Finset.mem_insert]
    constructor
    · intro h
      rcases Nat.lt_succ_iff_lt_or_eq.mp h with h | h
      · exact Or.inr h
      · exact Or.inl (Fin.ext h)
    · rintro (rfl | h)
      · exact Nat.lt_succ_self _
      · exact Nat.lt_succ_of_lt h
  rw [hs, Finset.sum_insert (by simp), add_comm]

/-- All sixteen blocks: every column. -/
theorem pre_sixteen : pre f 16 = ∑ c : Fin 8192, f c := by
  unfold pre
  rw [Finset.filter_true_of_mem (fun j _ => j.isLt)]
  exact sum_blocks f

/-- An accumulator that starts at zero and at step j adds block j's sum g j holds, after n steps, the sum over the
    first n blocks. -/
theorem acc_eq_pre (acc : ℕ → M) (g : Fin 16 → M) (hg : ∀ j, g j = ∑ l : Fin 512, f (col j l)) (h0 : acc 0 = 0)
    (hs : ∀ j : Fin 16, acc (j.val + 1) = acc j.val + g j) : ∀ n, n ≤ 16 → acc n = pre f n := by
  intro n
  induction n with
  | zero => intro _; rw [h0, pre_zero]
  | succ n ih =>
    intro hn
    have e := hs ⟨n, by omega⟩
    have p := pre_succ f ⟨n, by omega⟩
    simp only at e p
    rw [e, p, ih (by omega), hg]

/-- … so after all sixteen it holds the sum over every column. -/
theorem acc_final (acc : ℕ → M) (g : Fin 16 → M) (hg : ∀ j, g j = ∑ l : Fin 512, f (col j l)) (h0 : acc 0 = 0)
    (hs : ∀ j : Fin 16, acc (j.val + 1) = acc j.val + g j) : acc 16 = ∑ c : Fin 8192, f c := by
  rw [acc_eq_pre f acc g hg h0 hs 16 le_rfl, pre_sixteen]

end Blocks

/-! The same on the extended reals with the zeros a program writes: the accumulator's first value and each block sum's
initial value are the literal zero word or 0, and a host sum of every column starts from one of them too. -/

section BlocksEReal
variable (f : Fin 8192 → EReal)

/-- The literal zero word, or 0, in front of a sum changes nothing. -/
theorem zero_word_add (y : EReal) : Ideal.ofBits .f32 0x00000000#32 + y = y := by
  rw [Ideal.ofBits_zero_f32, zero_add]

/-- Blocks that each start from 0: 0 + the block's sum. -/
theorem acc_final_zero (acc : ℕ → EReal) (h0 : acc 0 = 0)
    (hs : ∀ j : Fin 16, acc (j.val + 1) = acc j.val + (0 + ∑ l : Fin 512, f (col j l))) :
    acc 16 = 0 + ∑ c : Fin 8192, f c := by
  rw [zero_add]
  exact acc_final f acc (fun j => 0 + ∑ l : Fin 512, f (col j l)) (fun j => zero_add _) h0 hs

/-- Blocks and accumulator that start from the literal zero word. -/
theorem acc_final_word (acc : ℕ → EReal) (h0 : acc 0 = Ideal.ofBits .f32 0x00000000#32)
    (hs : ∀ j : Fin 16, acc (j.val + 1) = acc j.val + (Ideal.ofBits .f32 0x00000000#32 + ∑ l : Fin 512, f (col j l))) :
    acc 16 = Ideal.ofBits .f32 0x00000000#32 + ∑ c : Fin 8192, f c := by
  rw [zero_word_add]
  exact acc_final f acc (fun j => Ideal.ofBits .f32 0x00000000#32 + ∑ l : Fin 512, f (col j l))
    (fun j => zero_word_add _) (by rw [h0, Ideal.ofBits_zero_f32]) hs

/-- The closed form of the sixteen-step accumulation, with no accumulator named: the nested sum with a zero in front of
    each block and of the whole is the host's zero plus the sum over every column. -/
theorem sum_blocks_zero :
    (0 : EReal) + ∑ j : Fin 16, (0 + ∑ l : Fin 512, f (col j l)) = 0 + ∑ c : Fin 8192, f c := by
  simp only [zero_add]
  exact sum_blocks f

end BlocksEReal

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## (4) counting bits: the integer count converted is the sum of the converted bits -/

/-- A one-bit word zero-extended to 32 bits is 0 or 1 as a natural number. -/
theorem toNat_setWidth_le (b : BitVec 1) : (b.setWidth 32).toNat ≤ 1 := by
  rcases BitVec.eq_zero_or_eq_one b with h | h <;> subst h <;> decide

/-- A sum, in 32-bit arithmetic, of fewer than 2^32 words that are each 0 or 1 does not wrap: its number is the sum of
    theirs. -/
theorem toNat_sum {ι : Type*} (S : Finset ι) (v : ι → BitVec 32) (hv : ∀ c, (v c).toNat ≤ 1) (hS : S.card < 2 ^ 32) :
    (∑ c ∈ S, v c).toNat = ∑ c ∈ S, (v c).toNat := by
  classical
  induction S using Finset.induction_on with
  | empty => simp
  | insert a S ha ih =>
    rw [Finset.card_insert_of_notMem ha] at hS
    have hb : ∑ c ∈ S, (v c).toNat ≤ S.card := by
      calc ∑ c ∈ S, (v c).toNat ≤ ∑ c ∈ S, 1 := Finset.sum_le_sum fun c _ => hv c
        _ = S.card := by simp
    rw [Finset.sum_insert ha, Finset.sum_insert ha, BitVec.toNat_add, ih (by omega)]
    have := hv a
    exact Nat.mod_eq_of_lt (by omega)

/-- A 32-bit word below 2^31 reads the same signed and unsigned. -/
theorem toInt_eq_toNat_of_lt (w : BitVec 32) (h : w.toNat < 2 ^ 31) : w.toInt = (w.toNat : ℤ) := by
  unfold BitVec.toInt
  rw [if_pos (by omega)]

section Count
variable {n : ℕ} (hn : n < 2 ^ 31) (b : Fin n → BitVec 1)
include hn

/-- The signed reading of the 32-bit sum of n < 2^31 zero-extended bits is the sum of their signed readings. -/
theorem count_int : (∑ c, (b c).setWidth 32 : BitVec 32).toInt = ∑ c, ((b c).setWidth 32).toInt := by
  have hv : ∀ c, ((b c).setWidth 32).toNat ≤ 1 := fun c => toNat_setWidth_le (b c)
  have hsum := toNat_sum Finset.univ (fun c => (b c).setWidth 32) hv (by rw [Finset.card_univ, Fintype.card_fin]; omega)
  have hle : ∑ c, ((b c).setWidth 32).toNat ≤ n := by
    calc ∑ c, ((b c).setWidth 32).toNat ≤ ∑ c : Fin n, 1 := Finset.sum_le_sum fun c _ => hv c
      _ = n := by simp
  rw [toInt_eq_toNat_of_lt _ (by rw [hsum]; omega), hsum, Nat.cast_sum]
  exact Finset.sum_congr rfl fun c _ => (toInt_eq_toNat_of_lt _ (by have := hv c; omega)).symm

/-- The same cast to the reals. -/
theorem count_real :
    ((∑ c, (b c).setWidth 32 : BitVec 32).toInt : ℝ) = ∑ c, (((b c).setWidth 32).toInt : ℝ) := by
  rw [count_int hn b, Int.cast_sum]

/-- The same on the extended reals: the converted count is the sum of the converted bits. -/
theorem count_eq :
    (((∑ c, (b c).setWidth 32 : BitVec 32).toInt : ℝ) : EReal) = ∑ c, ((((b c).setWidth 32).toInt : ℝ) : EReal) := by
  rw [count_real hn b, coe_sum]

/-- … and through the conversion field: the signed conversion of the integer sum is the float sum of the signed
    conversions. -/
theorem count_eq_fields :
    FloatOps.sitofp (F := Ideal) .f32 (∑ c, (b c).setWidth 32 : BitVec 32)
      = ∑ c, FloatOps.sitofp (F := Ideal) .f32 ((b c).setWidth 32) :=
  count_eq hn b

end Count

/-- A fold of the integer addition over a set is the initial word plus the sum. -/
theorem fold_addi_eq_sum {ι : Type*} (S : Finset ι) (init : BitVec 32) (x : ι → BitVec 32) :
    S.fold IntOp.addi init x = init + ∑ i ∈ S, x i := by
  induction S using Finset.cons_induction with
  | empty => simp
  | cons a S ha ih =>
    rw [Finset.fold_cons, Finset.sum_cons, ih]
    show x a + (init + _) = init + (x a + _)
    exact add_left_comm _ _ _

/-- The host's integer sum over ONE axis, at a result index: the initial word plus the sum, in 32-bit arithmetic, over
    that axis's coordinates. -/
theorem reduce_addi_single {s t u : Shape} {a : Fin s.rank} (x : s.Idx → BitVec 32) (init : u.Idx → BitVec 32)
    (h' : s.ReducesTo [a] t) (h : s.Reduces [a] t) (hu : 0 < u.numel) (j : t.Idx) :
    Host.reduce IntOp.addi x init h' hu j = init (Shape.Idx.first hu) + ∑ k : Fin (s.size a), x (h.lift j k) := by
  rw [Host.reduce_eq_fold_single IntOp.addi x init h' h hu j, fold_addi_eq_sum]
  rfl

/-! ## The pieces joined, in the shapes the two programs meet in -/

/-- The sum over the first n blocks is the sum over the first 512 · n columns. -/
theorem pre_eq_filter {M : Type*} [AddCommMonoid M] (f : Fin 8192 → M) (n : ℕ) :
    pre f n = ∑ c ∈ Finset.univ.filter (fun c : Fin 8192 => c.val < 512 * n), f c := by
  unfold pre
  rw [← Finset.sum_product' (Finset.univ.filter fun j : Fin 16 => j.val < n) Finset.univ (fun j l => f (col j l))]
  refine Finset.sum_equiv colEquiv (fun p => ?_) (fun p _ => rfl)
  obtain ⟨j, l⟩ := p
  simp only [Finset.mem_product, Finset.mem_filter, Finset.mem_univ, true_and, and_true]
  show j.val < n ↔ 512 * j.val + l.val < 512 * n
  constructor <;> intro h <;> omega

/-- A sum of squares of reals, taken on the extended reals, is the real sum of squares. -/
theorem sum_sq_coe {ι : Type*} [Fintype ι] (a : ι → ℝ) :
    ∑ d, (a d : EReal) * (a d : EReal) = ((∑ d, a d * a d : ℝ) : EReal) := by
  rw [coe_sum]
  exact Finset.sum_congr rfl fun d _ => (EReal.coe_mul _ _).symm

/-- One row's normalization, both ways: for reals a d whose sum of squares is positive and any extended real x, x times
    the reciprocal square root of the row's sum of squares (no initial value: a lane sum) is x divided by the square
    root of the zero word plus that sum (a host sum from its initial value). -/
theorem unit_row {ι : Type*} [Fintype ι] (a : ι → ℝ) (hs : 0 < ∑ d, a d * a d) (x : EReal) :
    x * Ideal.rsqrt (∑ d, (a d : EReal) * (a d : EReal))
      = Ideal.div x (Ideal.sqrt (Ideal.ofBits .f32 0x00000000#32 + ∑ d, (a d : EReal) * (a d : EReal))) := by
  rw [zero_word_add, sum_sq_coe]
  exact unit_eq x _ hs

/-- … and its value: x a real b, both are b / √(Σ a²). -/
theorem unit_row_val {ι : Type*} [Fintype ι] (a : ι → ℝ) (hs : 0 < ∑ d, a d * a d) (b : ℝ) :
    (b : EReal) * Ideal.rsqrt (∑ d, (a d : EReal) * (a d : EReal)) = ((b / Real.sqrt (∑ d, a d * a d) : ℝ) : EReal) := by
  rw [sum_sq_coe]
  exact unit_val b _ hs

/-- The count both ways: the float sum, block by block, of the converted zero-extended bits is the conversion of their
    integer sum over all 8192 columns. -/
theorem count_blocks (b : Fin 8192 → BitVec 1) :
    ∑ j : Fin 16, ∑ l : Fin 512, FloatOps.sitofp (F := Ideal) .f32 ((b (col j l)).setWidth 32)
      = FloatOps.sitofp (F := Ideal) .f32 (∑ c, (b c).setWidth 32 : BitVec 32) := by
  rw [sum_blocks (fun c => FloatOps.sitofp (F := Ideal) .f32 ((b c).setWidth 32))]
  exact (count_eq_fields (by norm_num) b).symm

end Cert.Algebra

end
-- ==== Proof.Bridge.lean ====
/-
  The kernel's per-row loss in index form, and its equality with the reference's.

  The kernel normalises a row by multiplying with the reciprocal square root of the row's sum of squares where the
  reference divides by the square root; it adds up a row's terms block by block, 16 blocks of 512 columns, where the
  reference sums over all 8192 columns at once; it counts a row's positive pairs by adding the converted mask bits as
  floats where the reference adds them as 32-bit words and converts the sum; and it negates by subtracting from zero.
  On the extended reals, for rows whose sum of squares is positive, each pair agrees:
    a · rsqrt s = a / sqrt s                       for every extended real a and every s > 0 (at s = ⊤ both are 0),
    Σ_j Σ_l f (512 j + l) = Σ_c f c,
    Σ_c float (bit c) = float (Σ_c bit c)          since at most 8192 < 2³¹ ones are added, no word wraps,
    0 - y = -y.
-/
import proofs.«173541_j78228534329348_1_alg».proof.Proof.RefSide
import proofs.«173541_j78228534329348_1_alg».proof.Proof.Algebra

noncomputable section

namespace Cert.Bridge

open Cert.ReferenceIdeal Cert.ReferenceIdeal.Gen Cert.ReferenceIdeal.RefSide Idealize.ShloMosaic Idealize.ShloMosaic.ValueIdx
open Cert.Algebra (col sum_blocks count_blocks reduce_addi_single neg_eq)
open scoped BigOperators

/-! ## The kernel's functions -/

/-- A row normalised the kernel's way: each entry times the reciprocal square root of the row's sum of squares. -/
def eK (x : FVec Ideal S8192x128 .f32) (r : Fin 8192) (d : Fin 128) : EReal :=
  x (ix2 r d) * Ideal.rsqrt (ssR x r)

/-- The similarity of two rows normalised the kernel's way. -/
def simK (x : FVec Ideal S8192x128 .f32) (r c : Fin 8192) : EReal :=
  ∑ d : Fin 128, eK x r d * eK x c d

/-- A row's denominator, summed block by block. -/
def denomK (x : FVec Ideal S8192x128 .f32) (r : Fin 8192) : EReal :=
  ∑ j : Fin 16, ∑ l : Fin 512, if r = col j l then 0 else Ideal.exp (simK x r (col j l))

/-- A row's sum of similarities over its positive pairs, summed block by block. -/
def possumK (x : FVec Ideal S8192x128 .f32) (lab : IVec S8192 32) (r : Fin 8192) : EReal :=
  ∑ j : Fin 16, ∑ l : Fin 512, if posR lab r (col j l) then simK x r (col j l) else 0

/-- The number of a row's positive pairs, each mask bit widened to a 32-bit word, converted, and the floats summed
    block by block. -/
def cntK (lab : IVec S8192 32) (r : Fin 8192) : EReal :=
  ∑ j : Fin 16, ∑ l : Fin 512, FloatOps.sitofp (F := Ideal) .f32 ((maskR lab r (col j l)).setWidth 32)

/-- A row's loss, the kernel's way. -/
def lossK (x : FVec Ideal S8192x128 .f32) (lab : IVec S8192 32) (r : Fin 8192) : EReal :=
  0 - (possumK x lab r - cntK lab r * Ideal.log (denomK x r))

/-! ## The normalisation -/

/-- Multiplying by the reciprocal square root is dividing by the square root, at every positive extended real
    (at the real ones both are the quotient by the real square root; at ⊤ both are zero). -/
theorem mul_rsqrt_eq_div_sqrt (a s : EReal) (hs : 0 < s) : a * Ideal.rsqrt s = Ideal.div a (Ideal.sqrt s) := by
  induction s using EReal.rec with
  | bot => exact absurd hs (not_lt.mpr bot_le)
  | top =>
    rw [Ideal.rsqrt_top, Ideal.sqrt_top, mul_zero]
    unfold Ideal.div
    rw [if_neg (by simp), EReal.inv_top, mul_zero]
  | coe s =>
    have hs' : 0 < s := EReal.coe_pos.mp hs
    rw [Ideal.rsqrt_coe, Ideal.sqrt_coe, if_neg (not_lt.mpr hs'.le), if_neg hs'.ne', if_neg (not_lt.mpr hs'.le),
      Ideal.div_coe (Real.sqrt_ne_zero'.mpr hs'), one_div]

section
variable (x : FVec Ideal S8192x128 .f32) (lab : IVec S8192 32)

/-- The two normalisations of a row with a positive sum of squares agree entry by entry. -/
theorem eK_eq (hpos : ∀ r, (0 : EReal) < ssR x r) (r : Fin 8192) (d : Fin 128) : eK x r d = eR x r d :=
  mul_rsqrt_eq_div_sqrt _ _ (hpos r)

/-- Hence so do the similarities. -/
theorem simK_eq (hpos : ∀ r, (0 : EReal) < ssR x r) (r c : Fin 8192) : simK x r c = simR x r c := by
  unfold simK simR
  exact Finset.sum_congr rfl fun d _ => by rw [eK_eq x hpos, eK_eq x hpos]

/-! ## The sums along a row -/

/-- The denominators agree. -/
theorem denomK_eq (hpos : ∀ r, (0 : EReal) < ssR x r) (r : Fin 8192) : denomK x r = denomR x r := by
  unfold denomK denomR
  rw [sum_blocks (fun c => if r = c then 0 else Ideal.exp (simK x r c))]
  exact Finset.sum_congr rfl fun c _ => by rw [simK_eq x hpos]

/-- The positive-pair sums agree. -/
theorem possumK_eq (hpos : ∀ r, (0 : EReal) < ssR x r) (r : Fin 8192) : possumK x lab r = possumR x lab r := by
  unfold possumK possumR
  rw [sum_blocks (fun c => if posR lab r c then simK x r c else 0)]
  exact Finset.sum_congr rfl fun c _ => by rw [simK_eq x hpos]

/-! ## The count -/

/-- The 32-bit word sum along a row of a square array, read at the row. -/
theorem reduce_addi_row (M : IVec S8192x8192 32) (r : Fin 8192) :
    Host.reduce IntOp.addi M (constantI S_ 32 0#32) reducesTo_S8192x8192_S8192_d1 h_S_ (ix1 r)
      = ∑ k : Fin 8192, M (ix2 r k) := by
  have hR : S8192x8192.Reduces [1] S8192 := by decide
  rw [reduce_addi_single M _ reducesTo_S8192x8192_S8192_d1 hR h_S_ (ix1 r)]
  show 0#32 + _ = _
  rw [BitVec.zero_add]
  refine Finset.sum_congr rfl fun k _ => ?_
  exact congrArg M (funext fun a => Fin.ext (by match a with | ⟨0, _⟩ => rfl | ⟨1, _⟩ => rfl))

/-- The count word at a row is the word sum of the row's widened mask bits. -/
theorem cntWord_apply (r : Fin 8192) :
    cntWordR lab (ix1 r) = ∑ k : Fin 8192, (maskR lab r k).setWidth 32 := by
  unfold cntWordR
  rw [reduce_addi_row]
  rfl

/-- The counts agree: the floats of the bits summed block by block are the float of the bits' word sum. -/
theorem cntK_eq (r : Fin 8192) : cntK lab r = cntR lab r := by
  unfold cntK cntR
  rw [count_blocks (fun c => maskR lab r c), cntWord_apply]

/-- One mask bit, widened and converted, is one on a positive pair and zero otherwise. -/
theorem cnt_term (r c : Fin 8192) :
    FloatOps.sitofp (F := Ideal) .f32 ((maskR lab r c).setWidth 32) = if posR lab r c then (1 : EReal) else 0 := by
  unfold maskR
  by_cases h : posR lab r c
  · rw [if_pos h, if_pos h]
    show (((BitVec.setWidth 32 1#1).toInt : ℝ) : EReal) = 1
    rw [show (BitVec.setWidth 32 1#1).toInt = 1 by decide]; norm_cast
  · rw [if_neg h, if_neg h]
    show (((BitVec.setWidth 32 0#1).toInt : ℝ) : EReal) = 0
    rw [show (BitVec.setWidth 32 0#1).toInt = 0 by decide]; norm_cast

/-- The kernel's count in closed form: one for each positive pair, summed block by block. -/
theorem cntK_closed (r : Fin 8192) :
    cntK lab r = ∑ j : Fin 16, ∑ l : Fin 512, if posR lab r (col j l) then (1 : EReal) else 0 := by
  unfold cntK
  exact Finset.sum_congr rfl fun j _ => Finset.sum_congr rfl fun l _ => cnt_term lab r (col j l)

/-! ## The loss -/

/-- For rows whose sums of squares are positive, the kernel's row loss is the reference's. -/
theorem lossK_eq_of_pos (hpos : ∀ r, (0 : EReal) < ssR x r) (r : Fin 8192) : lossK x lab r = lossR x lab r := by
  unfold lossK lossR
  rw [neg_eq, possumK_eq x lab hpos, cntK_eq, denomK_eq x hpos]

/-- The same under the precondition's two facts: every entry is a real and every row's sum of squares is positive
    (only the second is used: the normalisations agree at an infinite sum of squares too). -/
theorem lossK_eq (hfin : ∀ i, ∃ a : ℝ, x i = (a : EReal)) (hpos : ∀ r, (0 : EReal) < ssR x r) (r : Fin 8192) :
    lossK x lab r = lossR x lab r :=
  lossK_eq_of_pos x lab hpos r

end

end Cert.Bridge

end
-- ==== Proof.KBase.lean ====
import proofs.«173541_j78228534329348_1_alg».proof.Proof.Gen.KernelIdeal.Launch
import proofs.«173541_j78228534329348_1_alg».proof.Proof.Gen.KernelIdeal.Skeleton
import proofs.«173541_j78228534329348_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken exactly at the first column block of a row block. -/
abbrev condFirst (i : grid0.Coords) : Prop := (Scalar.cmpi .ne (Scalar.extui (Scalar.cmpi .eq (BitVec.ofNat 32 (i 1).val) 0#32)) 0#32) = 1#1
/-- The second branch is taken exactly at the last column block of a row block. -/
abbrev condLast (i : grid0.Coords) : Prop := k0_cond2 i = 1#1

/-- The zero offsets of a whole-block access, however spelt. -/
theorem hz : (![0, 0] : Fin 2 → Nat) = fun _ => 0 := funext fun a => by fin_cases a <;> rfl

end Cert.KernelIdeal.Hand

end
-- ==== Proof.KData.lean ====
import proofs.«173541_j78228534329348_1_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the two reshapes of the labels have run. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions in closed form -/

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The running sums, point by point -/

/-- The staging memrefs at a point, as the pipeline passes them, and the three scratch buffers. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2

/-- One column block's contribution added to the three running sums `p` at point `t`. -/
def stepAcc (c : Dev nD) (t : Fin cfg0.N) (p : Vec F S1024x1 .f32 × Vec F S1024x1 .f32 × Vec F S1024x1 .f32) :
    Vec F S1024x1 .f32 × Vec F S1024x1 .f32 × Vec F S1024x1 .f32 :=
  (k0_pay1 (k0_pay8 (iblk m c 0 t) (iblk m c 1 t)) (k0_pay9 (grid0.coords t)) p.1,
   k0_pay2 (k0_pay8 (iblk m c 0 t) (iblk m c 1 t)) (k0_pay10 (grid0.coords t) (iblk m c 2 t) (iblk m c 3 t)) p.2.1,
   k0_pay3 (k0_pay10 (grid0.coords t) (iblk m c 2 t) (iblk m c 3 t)) p.2.2)

/-- The cleared sums. -/
def zeroAcc : Vec F S1024x1 .f32 × Vec F S1024x1 .f32 × Vec F S1024x1 .f32 := (k0_pay5, k0_pay6, k0_pay7)

/-- What the three scratch buffers hold after the body at position `n`: the sums over the column blocks of the
    current row block up to and including this one (cleared at the first column block of each row block). -/
def accAt (c : Dev nD) : (n : ℕ) → n < cfg0.N → Vec F S1024x1 .f32 × Vec F S1024x1 .f32 × Vec F S1024x1 .f32
  | 0, hn => stepAcc m c ⟨0, hn⟩ zeroAcc
  | n + 1, hn => stepAcc m c ⟨n + 1, hn⟩ (if (n + 1) % 16 = 0 then zeroAcc else accAt c n (Nat.lt_of_succ_lt hn))

theorem accAt_first (c : Dev nD) (t : Fin cfg0.N) (h0 : t.val % 16 = 0) : accAt m c t.val t.isLt = stepAcc m c t zeroAcc := by
  obtain ⟨n, hn⟩ := t
  cases n with
  | zero => rfl
  | succ n => exact congrArg (stepAcc m c ⟨n + 1, hn⟩) (if_pos h0)

theorem accAt_next (c : Dev nD) (t : Fin cfg0.N) (h0 : ¬ t.val % 16 = 0) :
    accAt m c t.val t.isLt = stepAcc m c t (accAt m c (t.val - 1) (Nat.lt_of_le_of_lt (Nat.sub_le _ _) t.isLt)) := by
  obtain ⟨n, hn⟩ := t
  cases n with
  | zero => exact absurd (Nat.zero_mod _) h0
  | succ n => exact congrArg (stepAcc m c ⟨n + 1, hn⟩) (if_neg h0)

/-- The row losses the last column block writes to the output block: minus (the similarity sum minus the count
    times the logarithm of the exponential sum). -/
def outAt (c : Dev nD) (t : Fin cfg0.N) : Vec F S1024x1 .f32 :=
  k0_pay4 (accAt m c t.val t.isLt).2.1 (accAt m c t.val t.isLt).2.2 (accAt m c t.val t.isLt).1

/-! ## The region's invariant and the proof data -/

/-- The scratch buffers before position `n`: at anything before the first point, then at the running sums the
    point before left. -/
def PhiS (c : Dev nD) : (n : ℕ) → n ≤ cfg0.N → sProp 𝕄
  | 0, _ => iprop((∃ d, owns (c : Thread nD τ) sc0 fullShare d) ∗ (∃ d, owns (c : Thread nD τ) sc1 fullShare d) ∗ (∃ d, owns (c : Thread nD τ) sc2 fullShare d))
  | n + 1, hn => iprop(owns (c : Thread nD τ) sc0 fullShare (accAt m c n hn).1 ∗ owns (c : Thread nD τ) sc1 fullShare (accAt m c n hn).2.1
      ∗ owns (c : Thread nD τ) sc2 fullShare (accAt m c n hn).2.2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d) ∗ (∃ d, owns (c : Thread nD τ) sc2 fullShare d)) := by
  subst hz; rfl

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2.1
      ∗ owns (c : Thread nD τ) sc2 fullShare (accAt m c n hn).2.2) := rfl

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2.1
      ∗ owns (c : Thread nD τ) sc2 fullShare (accAt m c (n - 1) (by omega)).2.2) := by
  cases n with
  | zero => exact absurd rfl hz
  | succ n => rfl

/-- Whatever the scratch buffers are known to hold, they hold something. -/
theorem PhiS_any (c : Dev nD) (n : ℕ) (h : n ≤ cfg0.N) :
    PhiS m c n h ⊢ iprop((∃ d, owns (c : Thread nD τ) sc0 fullShare d) ∗ (∃ d, owns (c : Thread nD τ) sc1 fullShare d) ∗ (∃ d, owns (c : Thread nD τ) sc2 fullShare d)) := by
  cases n with
  | zero => exact .rfl
  | succ n =>
    rw [PhiS_succ]
    iintro ⟨H0, H1, H2⟩
    isplitl [H0]; · iexists _; iexact H0
    isplitl [H1]; · iexists _; iexact H1
    iexists _; iexact H2

/-- The proof data on core `c`: the arrays as the region finds them; after the body each input's buffer at its
    block and the output's at the row losses; the scratch buffers' contents as the invariant; nothing owed; the two
    windows onto the embeddings each hold half of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The buffers after the region and at the end of @main -/

/-- Core `c`'s buffers when the region is left: the row losses in the kernel's result array (what the write-backs
    of the last column blocks put there), every other buffer as the region found it. -/
def Vmid (c : Dev nD) : Valuation τ sig (Elt F) :=
  Function.update (V0 m c) (Proc.devRef .tc main_v2) ((dats m 0 c).arrAt 4 cfg0.N)

/-- and at the end of @main: the reshape, the two masked sums, the quotient by the number of zero labels and the
    final sum have run. -/
def Vfin (c : Dev nD) : Valuation τ sig (Elt F) :=
  StableHlo.after hostOps1_4 (StableHlo.after hostOps1_3 (StableHlo.after hostOps1_2 (StableHlo.after hostOps1_1 (StableHlo.after hostOps1 (Vmid m c)))))

end Cert.KernelIdeal.Hand

end
-- ==== Proof.KFin.lean ====
/-
  The program's final read-back: from the points-to of every unscoped buffer at the end-of-program contents, read
  against the state interpretation, the memory holds the result buffer's end contents and both argument arrays as
  launched (no operation of the program writes an argument).
-/
import proofs.«173541_j78228534329348_1_alg».proof.Proof.KData
import Idealize.ShloMosaic.Lib.StableHlo.Run
import Idealize.ShloMosaic.Lib.Pipeline.Regions

set_option maxRecDepth 16384

noncomputable section

namespace Cert.KernelIdeal.KFin

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable {F : FTy → Type} [FloatOps F]

local notation "𝕄" => MT nD τ sig Unit (Elt F) ℕ (UR sig nD τ) ℕ

variable (m : (ℓ : Loc nD τ sig) → Buf (Elt F) ℓ)

/-! ## No operation writes an argument -/

/-- The two reshapes before the region write neither argument. -/
theorem V0_arg0 (c : Dev nD) : V0 m c (Proc.devRef .tc main_arg0) = m ((c : Thread nD τ).loc main_arg0) := by
  show StableHlo.after hostOps0 (fun b => m (c, b)) (Proc.devRef .tc main_arg0) = _
  dsimp only [hostOps0]
  after_results_simp
theorem V0_arg1 (c : Dev nD) : V0 m c (Proc.devRef .tc main_arg1) = m ((c : Thread nD τ).loc main_arg1) := by
  show StableHlo.after hostOps0 (fun b => m (c, b)) (Proc.devRef .tc main_arg1) = _
  dsimp only [hostOps0]
  after_results_simp

/-- Nor does the region: the arguments are as launched when it is left. -/
theorem Vmid_arg0 (c : Dev nD) : Vmid m c (Proc.devRef .tc main_arg0) = m ((c : Thread nD τ).loc main_arg0) := by
  unfold Vmid
  rw [Function.update_of_ne (StableHlo.devRef_ne_of_ne (by decide))]
  exact V0_arg0 m c
theorem Vmid_arg1 (c : Dev nD) : Vmid m c (Proc.devRef .tc main_arg1) = m ((c : Thread nD τ).loc main_arg1) := by
  unfold Vmid
  rw [Function.update_of_ne (StableHlo.devRef_ne_of_ne (by decide))]
  exact V0_arg1 m c

/-- No operation after the region writes an argument either: at the end of the program both are as launched. -/
theorem Vfin_arg0 (c : Dev nD) : Vfin m c (Proc.devRef .tc main_arg0) = m ((c : Thread nD τ).loc main_arg0) := by
  unfold Vfin
  dsimp only [hostOps1, hostOps1_1, hostOps1_2, hostOps1_3, hostOps1_4]
  after_results_simp
  exact Vmid_arg0 m c
theorem Vfin_arg1 (c : Dev nD) : Vfin m c (Proc.devRef .tc main_arg1) = m ((c : Thread nD τ).loc main_arg1) := by
  unfold Vfin
  dsimp only [hostOps1, hostOps1_1, hostOps1_2, hostOps1_3, hostOps1_4]
  after_results_simp
  exact Vmid_arg1 m c

/-! ## The read-back -/

/-- A value of the program is an unscoped TensorCore buffer. -/
theorem mem_ucRefs (b : Ref sig .tc) (hb : (Proc.devRef (τ := τ) .tc b).isScoped = false) :
    Proc.devRef .tc b ∈ Pipeline.ucRefs τ sig :=
  Finset.mem_filter.mpr ⟨StableHlo.devRef_mem_tcRefs b, fun h => Bool.false_ne_true (hb.symm.trans h)⟩

/-- Every unscoped buffer held at the end-of-program contents, read against a final state: the memory has the result
    buffer at its end contents and both arguments as launched. -/
theorem fin_read (c : Dev nD) (s' : Phys nD τ sig (Elt F)) :
    iprop((StableHlo.held (c : Thread nD τ) (Pipeline.ucRefs τ sig) (Vfin m c) : sProp 𝕄) ∗ SI s')
      ⊢ |={Set.univ}=> iprop(⌜s'.mem.mem ((c : Thread nD τ).loc main_v14) = Vfin m c (Proc.devRef .tc main_v14)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') := by
  unfold StableHlo.held
  iintro ⟨H, HSI⟩
  ihave H' := (pointsTo_read_all (Pipeline.ucRefs τ sig) (fun b => ((c : Thread nD τ).1, b)) (Vfin m c) s') $$ [H HSI]
  · isplitl [H] <;> iassumption
  icases H' with ⟨%h, HSI⟩
  imodintro
  isplitr
  · ipureintro
    exact ⟨h _ (mem_ucRefs main_v14 rfl), (h _ (mem_ucRefs main_arg0 rfl)).trans (Vfin_arg0 m c),
      (h _ (mem_ucRefs main_arg1 rfl)).trans (Vfin_arg1 m c)⟩
  · iexact HSI

end Cert.KernelIdeal.KFin

end
-- ==== Proof.KLaunch.lean ====
/-
  THE LAUNCH of the kernel program. @main is seven segments: the two reshapes of the labels, ONE kernel region — a
  pipeline of five windows over a grid of 8 × 16 points, the first two windows both onto the embeddings (a row block
  and a column block) —, and five stretches of host operations that reduce the row losses to the result. The run is the
  library's theorem for @main as a list of segments: each host stretch runs over the core's unscoped buffers held
  whole; the region takes the four buffers behind its five windows' arrays — the embeddings' buffer in two halves of
  its share, one per window onto it —, the three scratch buffers into its invariant, and lets every other unscoped
  buffer bypass; it leaves the result array at the row losses the write-backs put there and every other buffer as
  found, the two halves joined again.
-/
import proofs.«173541_j78228534329348_1_alg».proof.Proof.KData
import proofs.«173541_j78228534329348_1_alg».proof.Proof.KFin
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's own. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through the host operations: the core's `owes`. -/
abbrev R (c : Dev nD) : sProp 𝕄 := iprop(∃ W, owes (c : Thread nD τ) (0 : CellTallies nD τ sig Unit) W)

/-- The unscoped buffers of the TensorCore. -/
abbrev uc : Finset (DevRef τ sig) := Pipeline.ucRefs τ sig

/-- The buffers after each stretch of host operations that follows the region. -/
abbrev W1 (c : Dev nD) : Valuation τ sig (Elt F) := StableHlo.after hostOps1 (Vmid m c)
abbrev W2 (c : Dev nD) : Valuation τ sig (Elt F) := StableHlo.after hostOps1_1 (W1 m c)
abbrev W3 (c : Dev nD) : Valuation τ sig (Elt F) := StableHlo.after hostOps1_2 (W2 m c)
abbrev W4 (c : Dev nD) : Valuation τ sig (Elt F) := StableHlo.after hostOps1_3 (W3 m c)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h
theorem fresh1_3 : ∀ op ∈ (hostOps1_3 : List (HloOp τ sig (Elt F))), op.fresh = ∅ := by
  intro _ h; (repeat (cases h with | head => rfl | tail _ h => ?_)); exact nomatch h
theorem fresh1_4 : ∀ op ∈ (hostOps1_4 : List (HloOp τ sig (Elt F))), op.fresh = ∅ := by
  intro _ h; (repeat (cases h with | head => rfl | tail _ h => ?_)); exact nomatch h

/-- THE HOST SEGMENT before the region: the two reshapes of the labels. -/
def seg0 : Pipeline.HostSeg (Name := ℕ) (U := UR sig nD τ) (pcfgs (F := F)) defs₀ 𝒱₀ L lv :=
  Pipeline.HostSeg.ofOps _ _ _ _ _ uc hostOps0 (fun op h => Pipeline.sub_ucRefs op ((List.forall_iff_forall_mem.mp hostOps0_sub) op h))
    fresh0 (fun c b => m (c, b)) R

/-- The five host segments after the region, each from the buffers the one before left. -/
def seg1 : Pipeline.HostSeg (Name := ℕ) (U := UR sig nD τ) (pcfgs (F := F)) defs₀ 𝒱₀ L lv :=
  Pipeline.HostSeg.ofOps _ _ _ _ _ uc hostOps1 (fun op h => Pipeline.sub_ucRefs op ((List.forall_iff_forall_mem.mp hostOps1_sub) op h))
    fresh1 (Vmid m) R
def seg2 : Pipeline.HostSeg (Name := ℕ) (U := UR sig nD τ) (pcfgs (F := F)) defs₀ 𝒱₀ L lv :=
  Pipeline.HostSeg.ofOps _ _ _ _ _ uc hostOps1_1 (fun op h => Pipeline.sub_ucRefs op ((List.forall_iff_forall_mem.mp hostOps1_1_sub) op h))
    fresh1_1 (W1 m) R
def seg3 : Pipeline.HostSeg (Name := ℕ) (U := UR sig nD τ) (pcfgs (F := F)) defs₀ 𝒱₀ L lv :=
  Pipeline.HostSeg.ofOps _ _ _ _ _ uc hostOps1_2 (fun op h => Pipeline.sub_ucRefs op ((List.forall_iff_forall_mem.mp hostOps1_2_sub) op h))
    fresh1_2 (W2 m) R
def seg4 : Pipeline.HostSeg (Name := ℕ) (U := UR sig nD τ) (pcfgs (F := F)) defs₀ 𝒱₀ L lv :=
  Pipeline.HostSeg.ofOps _ _ _ _ _ uc hostOps1_3 (fun op h => Pipeline.sub_ucRefs op ((List.forall_iff_forall_mem.mp hostOps1_3_sub) op h))
    fresh1_3 (W3 m) R
def seg5 : Pipeline.HostSeg (Name := ℕ) (U := UR sig nD τ) (pcfgs (F := F)) defs₀ 𝒱₀ L lv :=
  Pipeline.HostSeg.ofOps _ _ _ _ _ uc hostOps1_4 (fun op h => Pipeline.sub_ucRefs op ((List.forall_iff_forall_mem.mp hostOps1_4_sub) op h))
    fresh1_4 (W4 m) R

/-! ## The arrays the region takes: four buffers behind five windows -/

section Arrays
variable (c : Dev nD)

/-- The scoped buffers no window stages are the three scratch buffers, as the invariant holds them before the first point. -/
theorem scoped_eq_Phi0 :
    (Pipeline.scopedRest (Ix := Unit) (Name := ℕ) (U := UR sig nD τ) (Lvl := ℕ) (Val := Elt F) spec0 c : sProp 𝕄)
      = PhiS m c 0 (Nat.zero_le _) := by
  rw [PhiS_zero m c 0 _ rfl, scopedRest0_eq]; simp only [sc0, sc1, sc2, owns_whole]; rfl

/-- The buffers behind the windows' arrays, one by one. -/
theorem arrBufs_eq (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2) ↦{fullShare} Vv main_v2)) := by
  unfold Pipeline.arrBufs
  rw [bigSep_eq_bigSepL_of_eq [main_arg0, main_v0, main_v1, main_v2] (by decide) (by decide)]
  rfl

/-- The pipeline's arrays, window by window: the two windows onto the embeddings hold a half each. -/
theorem arrays_eq (Fn : (w : Fin cfg0.W) → Buf (Elt F) ((cfg0.win w).arr.view.loc (c : Thread nD τ))) :
    ((dats m 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v0) ↦{fullShare} Fn 2) ∗ (((c : Thread nD τ).loc main_v1) ↦{fullShare} Fn 3)
          ∗ (((c : Thread nD τ).loc main_v2) ↦{fullShare} Fn 4)) := by
  have e : ((dats m 0 c).arrays Fn : sProp 𝕄)
      = bigSep Finset.univ fun w : Fin cfg0.W => ((((c : Thread nD τ).loc (Pipeline.arrRef spec0 w)) ↦{(dats m 0 c).share w} Fn w : sProp 𝕄)) := by
    unfold Dat.arrays
    exact bigSep_congr fun w _ => by rw [(arr_whole0 w).set_eq_univ]
  rw [e, bigSep_W0]
  rfl

end Arrays

section Sorting
variable (c : Dev nD)

/-- The core's buffers when the region is left, as a function of TensorCore references. -/
abbrev Vm (b : Ref sig .tc) : Buf (Elt F) ((c : Thread nD τ).loc b) := Vmid m c (Proc.devRef .tc b)

/-- ENTRY, the arrays: the four buffers at what the region finds are the pipeline's five arrays at their entry contents,
    the embeddings' buffer split into its two halves. -/
theorem entry_arrays :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H2, H3, H4⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

/-- An input's array is never written. -/
theorem arrAt_in0 : (dats m 0 c).arrAt 0 cfg0.N = V m c main_arg0 := (dats m 0 c).arrAt_in 0 rfl _
theorem arrAt_in1 : (dats m 0 c).arrAt 1 cfg0.N = V m c main_arg0 := (dats m 0 c).arrAt_in 1 rfl _
theorem arrAt_in2 : (dats m 0 c).arrAt 2 cfg0.N = V m c main_v0 := (dats m 0 c).arrAt_in 2 rfl _
theorem arrAt_in3 : (dats m 0 c).arrAt 3 cfg0.N = V m c main_v1 := (dats m 0 c).arrAt_in 3 rfl _

/-- The buffers at the region's exit: the result array at the row losses, -/
theorem Vm_v2 : Vm m c main_v2 = (dats m 0 c).arrAt 4 cfg0.N := by
  unfold Vm Vmid; rw [Function.update_self]
/-- every other buffer as found. -/
theorem Vm_of_ne (b : Ref sig .tc) (hb : b ≠ main_v2) : Vm m c b = V m c b := by
  unfold Vm Vmid; rw [Function.update_of_ne (StableHlo.devRef_ne_of_ne hb)]

/-- EXIT, the arrays: the pipeline's five arrays at their final contents are the four buffers at the exit contents, the
    embeddings' two halves joined. -/
theorem exit_arrays :
    ((dats m 0 c).arrays ((dats m 0 c).arrAt · cfg0.N) : sProp 𝕄)
      ⊢ Pipeline.arrBufs (Ix := Unit) (Name := ℕ) (U := UR sig nD τ) (Lvl := ℕ) spec0 c (Vm m c) := by
  rw [arrBufs_eq, arrays_eq, arrAt_in0, arrAt_in1, arrAt_in2, arrAt_in3, Vm_v2,
    Vm_of_ne m c main_arg0 (by decide), Vm_of_ne m c main_v0 (by decide), Vm_of_ne m c main_v1 (by decide)]
  iintro ⟨H0l, H0r, H2, H3, H4⟩
  ihave H0 := (pointsTo_share (PosShare.mem_left_op_right fullShare)).2 $$ [H0l H0r]
  · isplitl [H0l] <;> iassumption
  isplitl [H0]; · iexact H0
  isplitl [H2]; · iexact H2
  isplitl [H3]; · iexact H3
  iexact H4

/-- The unscoped buffers that are no window's array are the same at the entry and at the exit contents. -/
theorem rest_eq :
    (Pipeline.unscopedRest (Ix := Unit) (Name := ℕ) (U := UR sig nD τ) (Lvl := ℕ) spec0 c (V m c) : sProp 𝕄)
      = Pipeline.unscopedRest spec0 c (Vm m c) := by
  unfold Pipeline.unscopedRest
  refine bigSep_congr fun b hb => ?_
  rw [Vm_of_ne m c b fun e => (Finset.mem_sdiff.mp hb).2 (e ▸ Finset.mem_image.mpr ⟨4, Finset.mem_univ _, rfl⟩)]

/-- The unscoped buffers split into the arrays' and the rest, at any contents. -/
theorem ub_split (Vv : (b : Ref sig .tc) → Buf (Elt F) ((c : Thread nD τ).loc b)) :
    (unscopedBufs (Ix := Unit) (Name := ℕ) (U := UR sig nD τ) (Lvl := ℕ) c Vv : sProp 𝕄)
      = iprop(Pipeline.arrBufs spec0 c Vv ∗ Pipeline.unscopedRest spec0 c Vv) :=
  Pipeline.unscopedBufs_split₀ cfgs 0 winFacts₀0.arr_unscoped c Vv

end Sorting

section Ends
variable (c : Dev nD)

/-- The invariant after the last point: the scratch buffers at the last running sums. -/
theorem Phi_last : (dats m 0 c).Φ (Fin.last cfg0.N) = PhiS m c cfg0.N (Nat.le_refl _) := by
  dsimp only [dats]; simp only [Fin.val_last]

/-- The invariant before the first point is the scoped buffers no window stages. -/
theorem hin_ent :
    iprop(iprop(emp) ∗ Pipeline.prefHeld (pcfgs (F := F) 0).pre c (fun _ => fullShare) (adm (F := F) 0).1 ∗ Pipeline.scopedRest spec0 c)
      ⊢ ((dats m 0 c).Φ 0 : sProp 𝕄) := by
  show _ ⊢ PhiS m c 0 (Nat.zero_le _)
  rw [scoped_eq_Phi0]
  iintro ⟨-, -, Hr⟩; iexact Hr

/-- The invariant after the last point gives those buffers back, at something. -/
theorem hout_ent :
    ((dats m 0 c).Φ (Fin.last cfg0.N) : sProp 𝕄)
      ⊢ iprop(iprop(emp) ∗ Pipeline.ownSems0 (fun k : PEmpty => k.elim) c ∗ Pipeline.scopedRest spec0 c) := by
  rw [Phi_last]
  refine (PhiS_any m c _ _).trans ?_
  rw [Pipeline.ownSems0_none, scoped_eq_Phi0 m c, PhiS_zero m c 0 (Nat.zero_le _) rfl]
  iintro H; isplitr; · iempintro
  isplitr; · iempintro
  iexact H

end Ends

/-! ## The region -/

section Region

set_option backward.isDefEq.respectTransparency.types false in
/-- THE REGION: entered from what the first host segment left — the four arrays into the pipeline (the embeddings' in
    two halves, one per window onto it), the other unscoped buffers bypassing —, left with the result array at the row
    losses and everything else as found. -/
def reg0 (hbody : ∀ c, BodyObligation (dats (F := F) m 0 c) (defs₀ (F := F)) Variants.none () Set.univ) : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) uc (V0 m c) ∗ R c)
  post c := iprop(StableHlo.held (c : Thread nD τ) uc (Vmid m c) ∗ R c)
  X c := iprop(emp)
  Y c := iprop(emp)
  Z c := Pipeline.unscopedRest spec0 c (V m c)
  hentry c := by
    rw [show StableHlo.held (c : Thread nD τ) uc (V0 m c) = unscopedBufs c (V m c) from (Pipeline.unscopedBufs_held c (V0 m c)).symm,
      ub_split]
    iintro ⟨⟨⟨Ha, Hr⟩, HO⟩, -, -⟩
    ihave Ha := (entry_arrays m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := hin_ent m c
  hout c := hout_ent m c
  hexit c := by
    rw [show StableHlo.held (c : Thread nD τ) uc (Vmid m c) = unscopedBufs c (Vm m c) from (Pipeline.unscopedBufs_held c (Vmid m c)).symm,
      ub_split, ← rest_eq]
    iintro ⟨Ha, HO, -, HZ⟩
    ihave Ha := (exit_arrays m c) $$ Ha
    imodintro
    isplitr [HO]
    · isplitl [Ha]; · iexact Ha
      iexact HZ
    · unfold Pipeline.Dat.owesAt Pipeline.owesWithin
      icases HO with ⟨%W, -, HO⟩; iexists W; iexact HO

/-- @main as the list of the seven. -/
abbrev segs (hbody : ∀ c, BodyObligation (dats (F := F) m 0 c) (defs₀ (F := F)) Variants.none () Set.univ) : List (Pipeline.Seg (pcfgs (F := F)) adm (dats m) () defs₀ 𝒱₀ L lv) :=
  [.host (seg0 m), .region (reg0 m hbody), .host (seg1 m), .host (seg2 m), .host (seg3 m), .host (seg4 m), .host (seg5 m)]

/-- What the last host segment leaves. -/
abbrev Tₙ (c : Dev nD) : sProp 𝕄 := StableHlo.held (c : Thread nD τ) uc (Vfin m c)

set_option backward.isDefEq.respectTransparency.types false in
/-- At the compiled mesh, from any memory with zero counters: every weakly fair execution of @main on the TensorCores
    terminates, and every final state has the result at what the host operations after the region compute from the
    row losses, and both arguments unchanged. -/
theorem run_main (hbody : ∀ c, BodyObligation (dats (F := F) m 0 c) (defs₀ (F := F)) Variants.none () Set.univ) : θ_run defs (onTc (τ := τ) (main (F := F))) (s₀ m ρ) (fun r => ∀ c : Dev nD,
      r.2.mem ((c : Thread nD τ).loc main_v14) = Vfin m c (Proc.devRef .tc main_v14)
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) adm (dats m) () cellOf_inj EP defs₀ 𝒱₀ L lv m ρ main (segs m hbody)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (fun b => m (c, b)) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => s.mem ((c : Thread nD τ).loc main_v14) = Vfin m c (Proc.devRef .tc main_v14)
      ∧ s.mem ((c : Thread nD τ).loc main_arg0) = m ((c : Thread nD τ).loc main_arg0)
      ∧ s.mem ((c : Thread nD τ).loc main_arg1) = m ((c : Thread nD τ).loc main_arg1))
    (hfin := fun c s' => Cert.KernelIdeal.KFin.fin_read m c s')
    (hQ := fun _ h => h)

end Region

end Cert.KernelIdeal.Hand

end
-- ==== Proof.KRuns.lean ====
import proofs.«173541_j78228534329348_1_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging buffers, case by case

The body keeps three running row sums (the exponentials off the diagonal, the similarities of the equally
labelled off-diagonal pairs, and their count) in scratch buffers across the column blocks of one row block:
it clears them at the first column block, adds this block's lane sums at every column block, and at the last
one writes the row losses to the output block. -/

set_option maxHeartbeats 4000000 in
/-- A middle column block: the running sums are extended by this block's contribution; the output block is not touched. -/
theorem runMid (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : ¬condLast i)
    (x0 : Vec F S1024x128 .f32) (x1 : Vec F S512x128 .f32) (x2 : Vec F S1024x1 .i32) (x3 : Vec F S1x512 .i32) (x6 : Vec F S1024x1 .f32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x6
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x6
            ∗ owns (c : Thread nD τ) arg7 fullShare (k0_pay1 (k0_pay8 x0 x1) (k0_pay9 i) a0)
            ∗ owns (c : Thread nD τ) arg8 fullShare (k0_pay2 (k0_pay8 x0 x1) (k0_pay10 i x2 x3) a1)
            ∗ owns (c : Thread nD τ) arg9 fullShare (k0_pay3 (k0_pay10 i x2 x3) a2)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%f6, %hf6, H6⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3; obtain rfl := harg6.eq_unread hf6
  obtain rfl := harg7.eq_unread hg0; obtain rfl := harg8.eq_unread hg1; obtain rfl := harg9.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [HS0]
  · iexists _; isplitr; swap; · iexact HS0
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  isplitl [HS1]
  · iexists _; isplitr; swap; · iexact HS1
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  · iexists _; isplitr; swap; · iexact HS2
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]

set_option maxHeartbeats 4000000 in
/-- The first column block of a row block: the running sums are cleared, then extended by this block's contribution. -/
theorem runFirst (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : condFirst i) (hc1 : ¬condLast i)
    (x0 : Vec F S1024x128 .f32) (x1 : Vec F S512x128 .f32) (x2 : Vec F S1024x1 .i32) (x3 : Vec F S1x512 .i32) (x6 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x6
            ∗ owns (c : Thread nD τ) arg7 fullShare (k0_pay1 (k0_pay8 x0 x1) (k0_pay9 i) k0_pay5)
            ∗ owns (c : Thread nD τ) arg8 fullShare (k0_pay2 (k0_pay8 x0 x1) (k0_pay10 i x2 x3) k0_pay6)
            ∗ owns (c : Thread nD τ) arg9 fullShare (k0_pay3 (k0_pay10 i x2 x3) k0_pay7)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%f6, %hf6, H6⟩, ⟨%e0, %g0, -, HS0⟩, ⟨%e1, %g1, -, HS1⟩, ⟨%e2, %g2, -, HS2⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [HS0]
  · iexists _; isplitr; swap; · iexact HS0
    ipureintro
    rw [View.read_writes_eq_canon _ _ _ (fun y => ⟨_, List.mem_cons_self, View.mem_set_unit_zero hz inb_S1024x1_S1024x1_0_0 y⟩), View.canon_cons_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congrArg _ (View.readCov_unit_zero (S := S1024x1) _ hz inb_S1024x1_S1024x1_0_0 _)
  isplitl [HS1]
  · iexists _; isplitr; swap; · iexact HS1
    ipureintro
    rw [View.read_writes_eq_canon _ _ _ (fun y => ⟨_, List.mem_cons_self, View.mem_set_unit_zero hz inb_S1024x1_S1024x1_0_0 y⟩), View.canon_cons_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congrArg _ (View.readCov_unit_zero (S := S1024x1) _ hz inb_S1024x1_S1024x1_0_0 _)
  · iexists _; isplitr; swap; · iexact HS2
    ipureintro
    rw [View.read_writes_eq_canon _ _ _ (fun y => ⟨_, List.mem_cons_self, View.mem_set_unit_zero hz inb_S1024x1_S1024x1_0_0 y⟩), View.canon_cons_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congrArg _ (View.readCov_unit_zero (S := S1024x1) _ hz inb_S1024x1_S1024x1_0_0 _)

set_option maxHeartbeats 4000000 in
/-- The last column block: the running sums are extended by this block's contribution and the row losses are
    written to the output block. -/
theorem runLast (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : condLast i)
    (x0 : Vec F S1024x128 .f32) (x1 : Vec F S512x128 .f32) (x2 : Vec F S1024x1 .i32) (x3 : Vec F S1x512 .i32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 (k0_pay8 x0 x1) (k0_pay10 i x2 x3) a1) (k0_pay3 (k0_pay10 i x2 x3) a2) (k0_pay1 (k0_pay8 x0 x1) (k0_pay9 i) a0))
            ∗ owns (c : Thread nD τ) arg7 fullShare (k0_pay1 (k0_pay8 x0 x1) (k0_pay9 i) a0)
            ∗ owns (c : Thread nD τ) arg8 fullShare (k0_pay2 (k0_pay8 x0 x1) (k0_pay10 i x2 x3) a1)
            ∗ owns (c : Thread nD τ) arg9 fullShare (k0_pay3 (k0_pay10 i x2 x3) a2)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%d6, %f6, -, H6⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg7.eq_unread hg0; obtain rfl := harg8.eq_unread hg1; obtain rfl := harg9.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; swap; · iexact H6
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congr (congr (congrArg k0_pay4 (View.readCov_unit_zero (S := S1024x1) _ hz inb_S1024x1_S1024x1_0_0 _)) (View.readCov_unit_zero (S := S1024x1) _ hz inb_S1024x1_S1024x1_0_0 _)) (View.readCov_unit_zero (S := S1024x1) _ hz inb_S1024x1_S1024x1_0_0 _)
  isplitl [HS0]
  · iexists _; isplitr; swap; · iexact HS0
    ipureintro
    sl_unfold_words
    rw [View.read_writes_eq_canon _ _ _ (fun y => ⟨_, List.mem_singleton_self _, View.mem_set_unit_zero hz inb_S1024x1_S1024x1_0_0 y⟩), View.canon_unit_zero hz]
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  isplitl [HS1]
  · iexists _; isplitr; swap; · iexact HS1
    ipureintro
    sl_unfold_words
    rw [View.read_writes_eq_canon _ _ _ (fun y => ⟨_, List.mem_singleton_self _, View.mem_set_unit_zero hz inb_S1024x1_S1024x1_0_0 y⟩), View.canon_unit_zero hz]
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  · iexists _; isplitr; swap; · iexact HS2
    ipureintro
    sl_unfold_words
    rw [View.read_writes_eq_canon _ _ _ (fun y => ⟨_, List.mem_singleton_self _, View.mem_set_unit_zero hz inb_S1024x1_S1024x1_0_0 y⟩), View.canon_unit_zero hz]
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]

end Cert.KernelIdeal.Hand

end
-- ==== Proof.KBody.lean ====
import proofs.«173541_j78228534329348_1_alg».proof.Proof.KRuns
import proofs.«173541_j78228534329348_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, nothing owed, and the five windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point. The inputs' buffers hold their blocks; the column block's position says which of the
    three cases the point is in; the invariant hands the body the scratch buffers at the running sums the point
    before left (at anything where they are about to be cleared) and takes them back at this point's sums; at the
    last column block the output buffer is left at the row losses, elsewhere as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  by_cases h0 : t.val % 16 = 0
  · have hc0 : condFirst (grid0.coords t) := (hcondFirst t).mpr h0
    have hc1 : ¬condLast (grid0.coords t) := fun h => by have := (hcondLast t).mp h; omega
    rw [Dat.leavesExact_idle (dats m 0 c) 4 t (idle4 t hc1) (noFlush4 t hc1)]
    rw [accAt_first m c t h0]; unfold stepAcc zeroAcc; (try dsimp only)
    iintro ⟨HP, Ho, ⟨%d0, H0⟩, ⟨%d1, H1⟩, ⟨%d2, H2⟩, ⟨%d3, H3⟩, ⟨%d4, H4⟩⟩
    ihave HP' := (PhiS_any m c _ _) $$ HP
    icases HP' with ⟨HS0, HS1, HS2⟩
    iapply (runFirst c (grid0.coords t) _ _ _ _ _ _ _ _ _ _ _ _ _ _ _ _ hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexists d4; iexact H4
  · have hc0 : ¬condFirst (grid0.coords t) := fun h => h0 ((hcondFirst t).mp h)
    have hz0 : t.val ≠ 0 := fun h => h0 (by rw [h])
    rw [accAt_next m c t h0]; unfold stepAcc; (try dsimp only)
    rw [PhiS_pos m c _ _ hz0]
    by_cases h1 : t.val % 16 = 15
    · have hc1 : condLast (grid0.coords t) := (hcondLast t).mpr h1
      rw [show (dats m 0 c).leavesExact 4 t = owns (c : Thread nD τ) (ms4 t) fullShare ((dats m 0 c).after 4 t) from by
        unfold Dat.leavesExact; rw [live4 t hc1], after4]
      unfold outAt; rw [accAt_next m c t h0]; unfold stepAcc; (try dsimp only)
      iintro ⟨⟨HS0, HS1, HS2⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ _ _ hc0 hc1 (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · have hc1 : ¬condLast (grid0.coords t) := fun h => h1 ((hcondLast t).mp h)
      rw [Dat.leavesExact_idle (dats m 0 c) 4 t (idle4 t hc1) (noFlush4 t hc1)]
      iintro ⟨⟨HS0, HS1, HS2⟩, Ho, ⟨%d0, H0⟩, ⟨%d1, H1⟩, ⟨%d2, H2⟩, ⟨%d3, H3⟩, ⟨%d4, H4⟩⟩
      iapply (runMid c (grid0.coords t) _ _ _ _ _ _ _ _ _ _ _ _ _ _ _ _ hc0 hc1 (iblk m c 0 t) (iblk m c 1 t) (iblk m c 2 t) (iblk m c 3 t) ((dats m 0 c).before 4 t d4) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelPay.lean ====
/- The kernel body's payloads read at an index, at the ideal values: each pure value the body stores or carries, as a
   function of the block entries it was computed from. -/
import proofs.«173541_j78228534329348_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

set_option synthInstance.maxSize 4096

noncomputable section

namespace Cert.KernelIdeal.Pay

open Idealize.ShloMosaic Idealize.SL.Sem Idealize.ShloMosaic.ValueIdx
open Cert.KernelIdeal Cert.KernelIdeal.Gen
open scoped BigOperators

/-! ## Layout operations in column form -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Integer operations at an index -/

theorem cmpi_apply {s : Shape} {w : ℕ} (pr : CmpIPredicate) (x y : IVec s w) (j : s.Idx) :
    cmpi pr x y j = IntOp.cmpi pr (x j) (y j) := rfl
theorem addi_apply {s : Shape} {w : ℕ} (x y : IVec s w) (j : s.Idx) : addi x y j = IntOp.addi (x j) (y j) := rfl
theorem andi_apply {s : Shape} {w : ℕ} (x y : IVec s w) (j : s.Idx) : andi x y j = IntOp.andi (x j) (y j) := rfl
theorem xori_apply {s : Shape} {w : ℕ} (x y : IVec s w) (j : s.Idx) : xori x y j = IntOp.xori (x j) (y j) := rfl

/-! ## Lane sums -/

/-- The lane sum of an `[n, m]` vector at row `p` is the sum over the row. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ l : Fin m, src (ix2 p l) := by
  refine (Ideal.multiReduction_add_single src 0x00000000#32 h hφ hacc (ix1 p)).trans ?_
  refine Finset.sum_congr rfl fun l _ => congrArg src ?_
  funext a; match a with | ⟨0, _⟩ => rfl | ⟨1, _⟩ => rfl

/-! ## The accumulators' payloads at a row -/

/-- The denominator's accumulator after a column block: the previous value plus the row's sum of the exponentials
    off the diagonal. -/
theorem pay1_apply (S : FVec Ideal S1024x512 .f32) (E : IVec S1024x512 1) (prev : Vec Ideal S1024x1 .f32) (p : Fin 1024) :
    k0_pay1 (F := Ideal) S E prev (ix2 p (0 : Fin 1))
      = prev (ix2 p (0 : Fin 1))
        + ∑ l : Fin 512, (if E (ix2 p l) = 1#1 then Ideal.ofBits .f32 0x00000000#32 else Ideal.exp (S (ix2 p l))) := by
  unfold k0_pay1
  rw [shapeCast_self, addf_apply, shapeCast_a_a1_apply]
  refine congrArg (prev (ix2 p (0 : Fin 1)) + ·) ?_
  refine (rowSum_apply _ _ _ _ p).trans ?_
  refine Finset.sum_congr rfl fun l _ => ?_
  rfl

/-- The positives' accumulator after a column block: the previous value plus the row's sum of the similarities
    under the mask. -/
theorem pay2_apply (S : FVec Ideal S1024x512 .f32) (M : IVec S1024x512 1) (prev : Vec Ideal S1024x1 .f32) (p : Fin 1024) :
    k0_pay2 (F := Ideal) S M prev (ix2 p (0 : Fin 1))
      = prev (ix2 p (0 : Fin 1))
        + ∑ l : Fin 512, (if M (ix2 p l) = 1#1 then S (ix2 p l) else Ideal.ofBits .f32 0x00000000#32) := by
  unfold k0_pay2
  rw [shapeCast_self, addf_apply, shapeCast_a_a1_apply]
  refine congrArg (prev (ix2 p (0 : Fin 1)) + ·) ?_
  refine (rowSum_apply _ _ _ _ p).trans ?_
  refine Finset.sum_congr rfl fun l _ => ?_
  rfl

/-- The count's accumulator after a column block: the previous value plus the row's sum of the mask's bits, each
    widened to a word and converted. -/
theorem pay3_apply (M : IVec S1024x512 1) (prev : Vec Ideal S1024x1 .f32) (p : Fin 1024) :
    k0_pay3 (F := Ideal) M prev (ix2 p (0 : Fin 1))
      = prev (ix2 p (0 : Fin 1))
        + ∑ l : Fin 512, ((((M (ix2 p l)).setWidth 32).toInt : ℝ) : EReal) := by
  unfold k0_pay3
  rw [shapeCast_self, addf_apply, shapeCast_a_a1_apply]
  refine congrArg (prev (ix2 p (0 : Fin 1)) + ·) ?_
  refine (rowSum_apply _ _ _ _ p).trans ?_
  refine Finset.sum_congr rfl fun l _ => ?_
  rfl

/-- A bit widened to a word and converted is `1` where the bit is set and `0` where it is not. -/
theorem bit_toReal (b : BitVec 1) : ((((b.setWidth 32).toInt : ℝ) : EReal)) = if b = 1#1 then 1 else 0 := by
  rcases BitVec.eq_zero_or_eq_one b with h | h <;> subst h <;> simp

/-- The count's accumulator with the bits read as `1` and `0`. -/
theorem pay3_apply' (M : IVec S1024x512 1) (prev : Vec Ideal S1024x1 .f32) (p : Fin 1024) :
    k0_pay3 (F := Ideal) M prev (ix2 p (0 : Fin 1))
      = prev (ix2 p (0 : Fin 1)) + ∑ l : Fin 512, (if M (ix2 p l) = 1#1 then (1 : EReal) else 0) := by
  rw [pay3_apply]
  exact congrArg (prev (ix2 p (0 : Fin 1)) + ·) (Finset.sum_congr rfl fun l _ => bit_toReal _)

/-- The loss of a row from its three finished accumulators. -/
theorem pay4_apply (a b c : Vec Ideal S1024x1 .f32) (p : Fin 1024) :
    k0_pay4 (F := Ideal) a b c (ix2 p (0 : Fin 1))
      = Ideal.ofBits .f32 0x00000000#32
        - (a (ix2 p (0 : Fin 1)) - b (ix2 p (0 : Fin 1)) * Ideal.log (c (ix2 p (0 : Fin 1)))) := rfl

/-- The three accumulators start from the zero vector. -/
theorem pay5_eq : k0_pay5 (F := Ideal) = fun _ => Ideal.ofBits .f32 0x00000000#32 := by
  unfold k0_pay5; dsimp only; rw [shapeCast_self]; rfl
theorem pay6_eq : k0_pay6 (F := Ideal) = fun _ => Ideal.ofBits .f32 0x00000000#32 := by
  unfold k0_pay6; dsimp only; rw [shapeCast_self]; rfl
theorem pay7_eq : k0_pay7 (F := Ideal) = fun _ => Ideal.ofBits .f32 0x00000000#32 := by
  unfold k0_pay7; dsimp only; rw [shapeCast_self]; rfl
theorem pay5_apply (p : Fin 1024) : k0_pay5 (F := Ideal) (ix2 p (0 : Fin 1)) = Ideal.ofBits .f32 0x00000000#32 := by
  rw [pay5_eq]
theorem pay6_apply (p : Fin 1024) : k0_pay6 (F := Ideal) (ix2 p (0 : Fin 1)) = Ideal.ofBits .f32 0x00000000#32 := by
  rw [pay6_eq]
theorem pay7_apply (p : Fin 1024) : k0_pay7 (F := Ideal) (ix2 p (0 : Fin 1)) = Ideal.ofBits .f32 0x00000000#32 := by
  rw [pay7_eq]

/-! ## The diagonal and the mask at an entry -/

/-- Two global positions, each a block's number times the block's extent plus the position inside the block,
    are equal as 32-bit words exactly when they are equal as numbers: nothing wraps below `2 ^ 14`. -/
theorem pos_word_eq_iff (a b c d : ℕ) (ha : a < 8) (hb : b < 1024) (hc : c < 16) (hd : d < 512) :
    IntOp.addi (BitVec.ofNat 32 b) (Scalar.muli (BitVec.ofNat 32 a) 1024#32)
        = IntOp.addi (BitVec.ofNat 32 d) (Scalar.muli (BitVec.ofNat 32 c) 512#32)
      ↔ 1024 * a + b = 512 * c + d := by
  rw [← BitVec.toNat_inj]
  simp only [IntOp.addi, Scalar.muli, IntOp.muli, BitVec.toNat_add, BitVec.toNat_mul, BitVec.toNat_ofNat,
    Nat.reducePow, Nat.reduceMod]
  omega

/-- The diagonal's bit at entry `(p, l)` of block `(i 0, i 1)`: set exactly when the entry's global row is its
    global column. -/
theorem eye_apply (i : grid0.Coords) (p : Fin 1024) (l : Fin 512) :
    (k0_pay9 i (ix2 p l) = 1#1) ↔ 1024 * (i 0).val + p.val = 512 * (i 1).val + l.val := by
  have h0 : (i 0).val < 8 := (i 0).isLt
  have h1 : (i 1).val < 16 := (i 1).isLt
  unfold k0_pay9
  dsimp only
  rw [cmpi_apply, IntOp.cmpi_eq, broadcastTo_a1_ab_apply, broadcastTo_1b_ab_apply, addi_apply, addi_apply,
    iota_single_apply, iota_single_apply]
  exact pos_word_eq_iff _ _ _ _ h0 p.isLt h1 l.isLt

/-- The mask's bit at entry `(p, l)` of block `(i 0, i 1)`: set exactly when the row's label is the column's label
    and the entry is off the diagonal. -/
theorem mask_apply (i : grid0.Coords) (ql : Vec Ideal S1024x1 .i32) (kl : Vec Ideal S1x512 .i32) (p : Fin 1024) (l : Fin 512) :
    (k0_pay10 (F := Ideal) i ql kl (ix2 p l) = 1#1)
      ↔ (ql (ix2 p (0 : Fin 1)) = kl (ix2 (0 : Fin 1) l)
          ∧ ¬ (1024 * (i 0).val + p.val = 512 * (i 1).val + l.val)) := by
  unfold k0_pay10
  rw [andi_apply, IntOp.andi_eq_one, cmpi_apply, IntOp.cmpi_eq, xori_apply, constantI_apply, xori_one_eq_not,
    IntOp.not_eq_one, eye_apply, broadcastTo_a1_ab_apply, broadcastTo_1b_ab_apply, shapeCast_self, shapeCast_self]

/-! ## The similarity block at an entry -/

/-- A block's row scaled by the reciprocal square root of its sum of squares, at an entry. -/
theorem unitRow_apply {n : ℕ} (x : FVec Ideal ⟨2, ![n, 128]⟩ .f32)
    (h : (⟨2, ![n, 128]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (hb : (⟨2, ![n, 1]⟩ : Shape).Broadcasts ⟨2, ![n, 128]⟩)
    (r : Fin n) (d : Fin 128) :
    mulf x (broadcastTo ⟨2, ![n, 128]⟩
        (rsqrt (shapeCast ⟨2, ![n, 1]⟩ (multiReduction .add [1] ⟨1, ![n]⟩ (mulf x x) 0x00000000#32 h hφ hacc) hc)) hb) (ix2 r d)
      = x (ix2 r d) * Ideal.rsqrt (∑ d' : Fin 128, x (ix2 r d') * x (ix2 r d')) := by
  rw [mulf_apply, broadcastTo_a1_ab_apply]
  refine congrArg (x (ix2 r d) * ·) ?_
  show Ideal.rsqrt (shapeCast ⟨2, ![n, 1]⟩ _ hc (ix2 r (0 : Fin 1))) = _
  rw [shapeCast_a_a1_apply]
  exact congrArg Ideal.rsqrt (rowSum_apply _ h hφ hacc r)

theorem sim_lhs0 (j : S1024x512.Idx) (q : dot_S1024x128_S128x512_S1024x512_1_0_0_1_n_n.contr.Idx) :
    (dot_S1024x128_S128x512_S1024x512_1_0_0_1_n_n.lhsIdx j q 0).val = (j 0).val := by
  unfold DotDims.lhsIdx
  rw [dif_neg (show ¬(0 : Fin S1024x128.rank) ∈ dot_S1024x128_S128x512_S1024x512_1_0_0_1_n_n.lhsBatch by decide),
    dif_pos (show (0 : Fin S1024x128.rank) ∈ dot_S1024x128_S128x512_S1024x512_1_0_0_1_n_n.lhsNonContracting by decide)]
  rfl
theorem sim_lhs1 (j : S1024x512.Idx) (q : dot_S1024x128_S128x512_S1024x512_1_0_0_1_n_n.contr.Idx) :
    (dot_S1024x128_S128x512_S1024x512_1_0_0_1_n_n.lhsIdx j q 1).val = (q ⟨0, by decide⟩).val :=
  dot_S1024x128_S128x512_S1024x512_1_0_0_1_n_n.lhsIdx_val_of_single rfl j q
theorem sim_rhs0 (j : S1024x512.Idx) (q : dot_S1024x128_S128x512_S1024x512_1_0_0_1_n_n.contr.Idx) :
    (dot_S1024x128_S128x512_S1024x512_1_0_0_1_n_n.rhsIdx j q 0).val = (q ⟨0, by decide⟩).val :=
  dot_S1024x128_S128x512_S1024x512_1_0_0_1_n_n.rhsIdx_val_of_single rfl j q
theorem sim_rhs1 (j : S1024x512.Idx) (q : dot_S1024x128_S128x512_S1024x512_1_0_0_1_n_n.contr.Idx) :
    (dot_S1024x128_S128x512_S1024x512_1_0_0_1_n_n.rhsIdx j q 1).val = (j 1).val := by
  unfold DotDims.rhsIdx
  rw [dif_neg (show ¬(1 : Fin S128x512.rank) ∈ dot_S1024x128_S128x512_S1024x512_1_0_0_1_n_n.rhsBatch by decide),
    dif_pos (show (1 : Fin S128x512.rank) ∈ dot_S1024x128_S128x512_S1024x512_1_0_0_1_n_n.rhsNonContracting by decide)]
  rfl

/-- The block product into a zero accumulator, at an entry: the contraction over the 128 lanes. -/
theorem blockProduct_apply (A : FVec Ideal S1024x128 .bf16) (B : FVec Ideal S128x512 .bf16) (p : Fin 1024) (l : Fin 512) :
    matmul dot_S1024x128_S128x512_S1024x512_1_0_0_1_n_n none A B (constant (F := Ideal) S1024x512 .f32 0x00000000#32) (ix2 p l)
      = ∑ d : Fin 128, A (ix2 p d) * B (ix2 d l) := by
  simp only [matmul]
  rw [Ideal.matmul_constant_zero_apply,
    ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p l)
      ((contrEquiv1 dot_S1024x128_S128x512_S1024x512_1_0_0_1_n_n 128 rfl rfl).symm k) = ix2 p k :=
    funext fun a => Fin.ext (by
      match a with
      | ⟨0, _⟩ => exact sim_lhs0 _ _
      | ⟨1, _⟩ => exact (sim_lhs1 _ _).trans hk)
  have er : dot_S1024x128_S128x512_S1024x512_1_0_0_1_n_n.rhsIdx (ix2 p l)
      ((contrEquiv1 dot_S1024x128_S128x512_S1024x512_1_0_0_1_n_n 128 rfl rfl).symm k) = ix2 k l :=
    funext fun a => Fin.ext (by
      match a with
      | ⟨0, _⟩ => exact (sim_rhs0 _ _).trans hk
      | ⟨1, _⟩ => exact sim_rhs1 _ _)
  rw [el, er]

/-- The similarity of row `p` of the row block and row `l` of the column block: the inner product of the two rows,
    each scaled by the reciprocal square root of its sum of squares. -/
theorem sim_apply (q : Vec Ideal S1024x128 .f32) (k : Vec Ideal S512x128 .f32) (p : Fin 1024) (l : Fin 512) :
    k0_pay8 (F := Ideal) q k (ix2 p l)
      = ∑ d : Fin 128,
          ((q (ix2 p d) : EReal) * Ideal.rsqrt (∑ d' : Fin 128, (q (ix2 p d') : EReal) * q (ix2 p d')))
            * ((k (ix2 l d) : EReal) * Ideal.rsqrt (∑ d' : Fin 128, (k (ix2 l d') : EReal) * k (ix2 l d'))) := by
  unfold k0_pay8
  refine (blockProduct_apply _ _ p l).trans ?_
  refine Finset.sum_congr rfl fun d _ => ?_
  rw [truncf_apply, transpose_ix2_apply, truncf_apply]
  exact congrArg₂ (· * ·) (unitRow_apply q _ _ _ _ _ p d) (unitRow_apply k _ _ _ _ _ l d)

end Cert.KernelIdeal.Pay

end
-- ==== Proof.KValue.lean ====
/- The kernel's value read off the proof data: the output array from the blocks its writing points wrote back, and the
   running sums of a row block in closed form. -/
import proofs.«173541_j78228534329348_1_alg».proof.Proof.KData
import proofs.«173541_j78228534329348_1_alg».proof.Proof.KernelPay
import proofs.«173541_j78228534329348_1_alg».proof.Proof.Bridge
import Idealize.ShloMosaic.Lib.ValueIdx
import Idealize.ShloMosaic.Lib.Pipeline.Value
import Idealize.ShloMosaic.Lib.ValueLayout

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.Algebra (col pre pre_zero pre_succ)
open Cert.Bridge (eK simK denomK possumK cntK lossK)
open Cert.ReferenceIdeal.RefSide (ssR posR)
open scoped BigOperators

variable {F : FTy → Type} [FloatOps F]
variable (m : (ℓ : Loc nD τ sig) → Buf (Elt F) ℓ)

/-! ## The output array from its blocks -/

/-- The grid has 128 points. -/
theorem hN : cfg0.N = 128 := N_0

/-- The point that writes row `r` back: the last column block of the row's row block. -/
def lastPt (r : ℕ) (hr : r < 8192) : Fin cfg0.N := ⟨16 * (r / 1024) + 15, by rw [hN]; omega⟩

theorem lastPt_val (r : ℕ) (hr : r < 8192) : (lastPt r hr).val = 16 * (r / 1024) + 15 := rfl

/-- The output array as one function of its index: row `r` holds what the last column block of its row block stored
    at the row's place in the block. -/
def G (c : Dev nD) : S8192x1.Idx → Elt F .f32 := fun y =>
  outAt m c (lastPt (y 0).val (idx2_lt0 y)) (ix2 (⟨(y 0).val % 1024, Nat.mod_lt _ (by decide)⟩ : Fin 1024) (0 : Fin 1))

/-- `G` at an index whose row is row `q` of point `t`'s block. -/
theorem G_at (c : Dev nD) (y : S8192x1.Idx) (t : Fin cfg0.N) (q : Fin 1024)
    (h1 : 16 * ((y 0).val / 1024) + 15 = t.val) (h2 : (y 0).val % 1024 = q.val) :
    G m c y = outAt m c t (ix2 q (0 : Fin 1)) := by
  unfold G
  have e1 : lastPt (y 0).val (idx2_lt0 y) = t := Fin.ext h1
  have e2 : (⟨(y 0).val % 1024, Nat.mod_lt _ (by decide)⟩ : Fin 1024) = q := Fin.ext h2
  rw [e1, e2]

/-- The output window's index map over the grid: the row block's number, and column block zero. -/
theorem idx_facts4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- What a writing point writes back is its block of `G`. -/
theorem flushed4_eq (c : Dev nD) (t : Fin cfg0.N) (hf : (cfg0.win 4).flush t = true) :
    (dats m 0 c).flushed 4 t = ((cfg0.win 4).blk t).view.read (Elt F) (G m c) := by
  show (cfg0.win 4).cut (grid0.coords t) ((dats m 0 c).after 4 t) = _
  rw [after4]
  have h15 : t.val % 16 = 15 := (flush0_4 t).mp hf
  obtain ⟨e0, e1⟩ := idx_facts4 t
  funext y
  show outAt m c t y = G m c (((cfg0.win 4).blk t).view.emb y)
  have hy0 : (y 0).val < 1024 := (y 0).isLt
  have hy1 : (y 1).val < 1 := (y 1).isLt
  have hemb : ((((cfg0.win 4).blk t).view.emb y) 0).val = win0_4.index t (0 : Fin 2) * 1024 + 1 * (y 0).val := rfl
  rw [G_at m c _ t ⟨(y 0).val, hy0⟩ (by rw [hemb, e0]; omega) (by rw [hemb, e0]; show _ = (y 0).val; omega)]
  refine congrArg (outAt m c t) (funext fun a => Fin.ext ?_)
  match a with
  | ⟨0, _⟩ => rfl
  | ⟨1, _⟩ => show (y 1).val = 0; omega

/-- An index of the array is in point `t`'s block exactly when each coordinate is in the block's range on its axis. -/
theorem mem_blk4 (t : Fin cfg0.N) (i : S8192x1.Idx) :
    i ∈ ((cfg0.win 4).blk t).view.set
      ↔ ∀ a : Fin 2, win0_4.index t a * S1024x1.size a ≤ (i a).val
          ∧ (i a).val < win0_4.index t a * S1024x1.size a + S1024x1.size a := by
  show i ∈ ((View.whole main_v2).slice (win0_4.rect t)).set ↔ _
  rw [View.set_slice_whole, Rect.mem_set_unit]
  exact Iff.rfl

/-- Every index of the array is in the block of the point that writes its row back. -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  refine ⟨lastPt (i 0).val hi0, (flush0_4 _).mpr (by rw [lastPt_val]; omega), ?_⟩
  obtain ⟨e0, e1⟩ := idx_facts4 (lastPt (i 0).val hi0)
  rw [lastPt_val] at e0
  rw [mem_blk4]
  intro a
  match a with
  | ⟨0, _⟩ =>
    show win0_4.index (lastPt (i 0).val hi0) (0 : Fin 2) * 1024 ≤ (i 0).val
      ∧ (i 0).val < win0_4.index (lastPt (i 0).val hi0) (0 : Fin 2) * 1024 + 1024
    rw [e0]; omega
  | ⟨1, _⟩ =>
    show win0_4.index (lastPt (i 0).val hi0) (1 : Fin 2) * 1 ≤ (i 1).val
      ∧ (i 1).val < win0_4.index (lastPt (i 0).val hi0) (1 : Fin 2) * 1 + 1
    rw [e1]; omega

/-- The output array after the region is `G`. -/
theorem final4 (c : Dev nD) : (dats m 0 c).arrAt 4 cfg0.N = G m c :=
  (dats m 0 c).arrAt_eq_of_cover 4 (G m c) (fun t hf => flushed4_eq m c t hf) cover4

/-- The output array at row `r`: what the last column block of the row's row block stored at the row's place. -/
theorem out_apply (c : Dev nD) (r : Fin 8192) :
    ((dats m 0 c).arrAt 4 cfg0.N : S8192x1.Idx → Elt F .f32) (ix2 r (0 : Fin 1))
      = outAt m c (lastPt r.val r.isLt) (ix2 (⟨r.val % 1024, Nat.mod_lt _ (by decide)⟩ : Fin 1024) (0 : Fin 1)) := by
  rw [final4]
  rfl

/-! ## The arrays as the region finds them, and the windows' blocks read at an entry -/

/-- The embeddings are untouched by the two reshapes before the region. -/
theorem V_arg0 (c : Dev nD) : V m c main_arg0 = m ((c : Thread nD τ).loc main_arg0) := by
  show StableHlo.after hostOps0 (fun b => m (c, b)) (Proc.devRef .tc main_arg0) = _
  after_results

/-- The labels as a column: the first reshape's result. -/
theorem V_v0 (c : Dev nD) :
    (V m c main_v0 : S8192x1.Idx → BitVec 32)
      = shapeCast S8192x1 (m ((c : Thread nD τ).loc main_arg1) : S8192.Idx → BitVec 32) shapeCasts_S8192_S8192x1 := by
  show StableHlo.after hostOps0 (fun b => m (c, b)) (Proc.devRef .tc main_v0) = _
  after_results
  rfl

/-- The labels as a row: the second reshape's result. -/
theorem V_v1 (c : Dev nD) :
    (V m c main_v1 : S1x8192.Idx → BitVec 32)
      = shapeCast S1x8192 (m ((c : Thread nD τ).loc main_arg1) : S8192.Idx → BitVec 32) shapeCasts_S8192_S1x8192 := by
  show StableHlo.after hostOps0 (fun b => m (c, b)) (Proc.devRef .tc main_v1) = _
  after_results
  rfl

/-- The input windows' index maps over the grid. -/
theorem idx_facts_in : ∀ t : Fin cfg0.N,
    (win0_0.index t (0 : Fin 2) = t.val / 16 ∧ win0_0.index t (1 : Fin 2) = 0)
    ∧ (win0_1.index t (0 : Fin 2) = t.val % 16 ∧ win0_1.index t (1 : Fin 2) = 0)
    ∧ (win0_2.index t (0 : Fin 2) = t.val / 16 ∧ win0_2.index t (1 : Fin 2) = 0)
    ∧ (win0_3.index t (0 : Fin 2) = 0 ∧ win0_3.index t (1 : Fin 2) = t.val % 16) :=
  (by decide +kernel : ∀ t : Fin grid0.N,
    (win0_0.index t (0 : Fin 2) = t.val / 16 ∧ win0_0.index t (1 : Fin 2) = 0)
    ∧ (win0_1.index t (0 : Fin 2) = t.val % 16 ∧ win0_1.index t (1 : Fin 2) = 0)
    ∧ (win0_2.index t (0 : Fin 2) = t.val / 16 ∧ win0_2.index t (1 : Fin 2) = 0)
    ∧ (win0_3.index t (0 : Fin 2) = 0 ∧ win0_3.index t (1 : Fin 2) = t.val % 16))

/-- The row block at point `t`: entry `(p, d)` is the embeddings' row `1024 (t / 16) + p` at `d`. -/
theorem iblk0_apply (c : Dev nD) (t : Fin cfg0.N) (p : Fin 1024) (d : Fin 128) (r : Fin 8192)
    (hr : r.val = 1024 * (t.val / 16) + p.val) :
    (iblk m c 0 t : S1024x128.Idx → Elt F .f32) (ix2 p d)
      = (m ((c : Thread nD τ).loc main_arg0) : S8192x128.Idx → Elt F .f32) (ix2 r d) := by
  obtain ⟨⟨e0, e1⟩, -, -, -⟩ := idx_facts_in t
  show V m c main_arg0 (((cfg0.win 0).blk t).view.emb (ix2 p d)) = _
  rw [V_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 128 + 1 * d.val = d.val; rw [e1]; omega

/-- The column block at point `t`: entry `(l, d)` is the embeddings' row `512 (t % 16) + l` at `d`. -/
theorem iblk1_apply (c : Dev nD) (t : Fin cfg0.N) (l : Fin 512) (d : Fin 128) (r : Fin 8192)
    (hr : r.val = 512 * (t.val % 16) + l.val) :
    (iblk m c 1 t : S512x128.Idx → Elt F .f32) (ix2 l d)
      = (m ((c : Thread nD τ).loc main_arg0) : S8192x128.Idx → Elt F .f32) (ix2 r d) := by
  obtain ⟨-, ⟨e0, e1⟩, -, -⟩ := idx_facts_in t
  show V m c main_arg0 (((cfg0.win 1).blk t).view.emb (ix2 l d)) = _
  rw [V_arg0]
  refine congrArg _ (funext fun a => Fin.ext ?_)
  match a with
  | ⟨0, _⟩ => show win0_1.index t (0 : Fin 2) * 512 + 1 * l.val = r.val; rw [e0, hr]; omega
  | ⟨1, _⟩ => show win0_1.index t (1 : Fin 2) * 128 + 1 * d.val = d.val; rw [e1]; omega

/-- The row labels' block at point `t`: entry `(p, 0)` is the label of row `1024 (t / 16) + p`. -/
theorem iblk2_apply (c : Dev nD) (t : Fin cfg0.N) (p : Fin 1024) (r : Fin 8192)
    (hr : r.val = 1024 * (t.val / 16) + p.val) :
    (iblk m c 2 t : S1024x1.Idx → BitVec 32) (ix2 p (0 : Fin 1))
      = (m ((c : Thread nD τ).loc main_arg1) : S8192.Idx → BitVec 32) (ix1 r) := by
  obtain ⟨-, -, ⟨e0, e1⟩, -⟩ := idx_facts_in t
  have he : ((cfg0.win 2).blk t).view.emb (ix2 p (0 : Fin 1)) = (ix2 r (0 : Fin 1) : S8192x1.Idx) :=
    funext fun a => Fin.ext (by
      match a with
      | ⟨0, _⟩ => show win0_2.index t (0 : Fin 2) * 1024 + 1 * p.val = r.val; rw [e0, hr]; omega
      | ⟨1, _⟩ => show win0_2.index t (1 : Fin 2) * 1 + 1 * 0 = 0; rw [e1])
  show (V m c main_v0 : S8192x1.Idx → BitVec 32) (((cfg0.win 2).blk t).view.emb (ix2 p (0 : Fin 1))) = _
  rw [he, V_v0]
  exact Pay.shapeCast_a_a1_apply _ _ r 0

/-- The column labels' block at point `t`: entry `(0, l)` is the label of row `512 (t % 16) + l`. -/
theorem iblk3_apply (c : Dev nD) (t : Fin cfg0.N) (l : Fin 512) (r : Fin 8192)
    (hr : r.val = 512 * (t.val % 16) + l.val) :
    (iblk m c 3 t : S1x512.Idx → BitVec 32) (ix2 (0 : Fin 1) l)
      = (m ((c : Thread nD τ).loc main_arg1) : S8192.Idx → BitVec 32) (ix1 r) := by
  obtain ⟨-, -, -, ⟨e0, e1⟩⟩ := idx_facts_in t
  have he : ((cfg0.win 3).blk t).view.emb (ix2 (0 : Fin 1) l) = (ix2 (0 : Fin 1) r : S1x8192.Idx) :=
    funext fun a => Fin.ext (by
      match a with
      | ⟨0, _⟩ => show win0_3.index t (0 : Fin 2) * 1 + 1 * 0 = 0; rw [e0]
      | ⟨1, _⟩ => show win0_3.index t (1 : Fin 2) * 512 + 1 * l.val = r.val; rw [e1, hr]; omega)
  show (V m c main_v1 : S1x8192.Idx → BitVec 32) (((cfg0.win 3).blk t).view.emb (ix2 (0 : Fin 1) l)) = _
  rw [he, V_v1]
  exact shapeCast_a_1a_apply _ _ 0 r

/-! ## One column block's contribution to a row's three running sums, at the ideal values -/

section Step
variable (x : FVec Ideal S8192x128 .f32) (lab : IVec S8192 32)

/-- A row's term of the denominator at column `cc`. -/
def denTerm (r cc : Fin 8192) : EReal := if r = cc then 0 else Ideal.exp (simK x r cc)
/-- A row's term of the positives' sum at column `cc`. -/
def posTerm (r cc : Fin 8192) : EReal := if posR lab r cc then simK x r cc else 0
/-- A row's term of the count at column `cc`. -/
def cntTerm (r cc : Fin 8192) : EReal := if posR lab r cc then (1 : EReal) else 0

/-- The similarity block at an entry whose two rows are rows `r` and `cc` of the embeddings. -/
theorem simBlock_apply (q : Vec Ideal S1024x128 .f32) (k : Vec Ideal S512x128 .f32) (p : Fin 1024) (l : Fin 512)
    (r cc : Fin 8192) (hq : ∀ d, q (ix2 p d) = x (ix2 r d)) (hk : ∀ d, k (ix2 l d) = x (ix2 cc d)) :
    k0_pay8 (F := Ideal) q k (ix2 p l) = simK x r cc := by
  rw [Pay.sim_apply]
  unfold simK eK ssR
  simp only [hq, hk]

/-- The denominator's running sum after one more column block. -/
theorem step1 (q : Vec Ideal S1024x128 .f32) (k : Vec Ideal S512x128 .f32) (g : grid0.Coords)
    (prev : Vec Ideal S1024x1 .f32) (p : Fin 1024) (r : Fin 8192) (cj : Fin 512 → Fin 8192)
    (hq : ∀ d, q (ix2 p d) = x (ix2 r d)) (hk : ∀ l d, k (ix2 l d) = x (ix2 (cj l) d))
    (hg : ∀ l : Fin 512, (1024 * (g 0).val + p.val = 512 * (g 1).val + l.val) ↔ r = cj l) :
    k0_pay1 (F := Ideal) (k0_pay8 q k) (k0_pay9 g) prev (ix2 p (0 : Fin 1))
      = prev (ix2 p (0 : Fin 1)) + ∑ l : Fin 512, denTerm x r (cj l) := by
  rw [Pay.pay1_apply]
  refine congrArg (prev (ix2 p (0 : Fin 1)) + ·) (Finset.sum_congr rfl fun l _ => ?_)
  unfold denTerm
  rw [simBlock_apply x q k p l r (cj l) hq (hk l), Ideal.ofBits_zero_f32]
  exact if_congr ((Pay.eye_apply g p l).trans (hg l)) rfl rfl

/-- The mask's bit at an entry whose row and column are rows `r` and `cc`: set exactly on a positive pair. -/
theorem maskBlock_iff (ql : Vec Ideal S1024x1 .i32) (kl : Vec Ideal S1x512 .i32) (g : grid0.Coords)
    (p : Fin 1024) (l : Fin 512) (r cc : Fin 8192)
    (hql : ql (ix2 p (0 : Fin 1)) = lab (ix1 r)) (hkl : kl (ix2 (0 : Fin 1) l) = lab (ix1 cc))
    (hg : (1024 * (g 0).val + p.val = 512 * (g 1).val + l.val) ↔ r = cc) :
    k0_pay10 (F := Ideal) g ql kl (ix2 p l) = 1#1 ↔ posR lab r cc := by
  rw [Pay.mask_apply, hql, hkl, hg]

/-- The positives' running sum after one more column block. -/
theorem step2 (q : Vec Ideal S1024x128 .f32) (k : Vec Ideal S512x128 .f32) (ql : Vec Ideal S1024x1 .i32)
    (kl : Vec Ideal S1x512 .i32) (g : grid0.Coords)
    (prev : Vec Ideal S1024x1 .f32) (p : Fin 1024) (r : Fin 8192) (cj : Fin 512 → Fin 8192)
    (hq : ∀ d, q (ix2 p d) = x (ix2 r d)) (hk : ∀ l d, k (ix2 l d) = x (ix2 (cj l) d))
    (hql : ql (ix2 p (0 : Fin 1)) = lab (ix1 r)) (hkl : ∀ l, kl (ix2 (0 : Fin 1) l) = lab (ix1 (cj l)))
    (hg : ∀ l : Fin 512, (1024 * (g 0).val + p.val = 512 * (g 1).val + l.val) ↔ r = cj l) :
    k0_pay2 (F := Ideal) (k0_pay8 q k) (k0_pay10 g ql kl) prev (ix2 p (0 : Fin 1))
      = prev (ix2 p (0 : Fin 1)) + ∑ l : Fin 512, posTerm x lab r (cj l) := by
  rw [Pay.pay2_apply]
  refine congrArg (prev (ix2 p (0 : Fin 1)) + ·) (Finset.sum_congr rfl fun l _ => ?_)
  unfold posTerm
  rw [simBlock_apply x q k p l r (cj l) hq (hk l), Ideal.ofBits_zero_f32]
  exact if_congr (maskBlock_iff lab ql kl g p l r (cj l) hql (hkl l) (hg l)) rfl rfl

/-- The count's running sum after one more column block. -/
theorem step3 (ql : Vec Ideal S1024x1 .i32) (kl : Vec Ideal S1x512 .i32) (g : grid0.Coords)
    (prev : Vec Ideal S1024x1 .f32) (p : Fin 1024) (r : Fin 8192) (cj : Fin 512 → Fin 8192)
    (hql : ql (ix2 p (0 : Fin 1)) = lab (ix1 r)) (hkl : ∀ l, kl (ix2 (0 : Fin 1) l) = lab (ix1 (cj l)))
    (hg : ∀ l : Fin 512, (1024 * (g 0).val + p.val = 512 * (g 1).val + l.val) ↔ r = cj l) :
    k0_pay3 (F := Ideal) (k0_pay10 g ql kl) prev (ix2 p (0 : Fin 1))
      = prev (ix2 p (0 : Fin 1)) + ∑ l : Fin 512, cntTerm lab r (cj l) := by
  rw [Pay.pay3_apply']
  refine congrArg (prev (ix2 p (0 : Fin 1)) + ·) (Finset.sum_congr rfl fun l _ => ?_)
  unfold cntTerm
  exact if_congr (maskBlock_iff lab ql kl g p l r (cj l) hql (hkl l) (hg l)) rfl rfl

end Step

/-! ## The running sums in closed form, and the row losses -/

section Sums
variable (mI : (ℓ : Loc nD τ sig) → Buf (Elt Ideal) ℓ) (c : Dev nD)

/-- The embeddings and the labels the program was started on. -/
abbrev xOf : FVec Ideal S8192x128 .f32 := mI ((c : Thread nD τ).loc main_arg0)
abbrev labOf : IVec S8192 32 := mI ((c : Thread nD τ).loc main_arg1)

/-- A grid point's coordinates: the row block's number and the column block's. -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The column block's number at a point. -/
def cblk (t : Fin cfg0.N) : Fin 16 := ⟨t.val % 16, Nat.mod_lt _ (by decide)⟩

/-- One point's step on a row's three sums. -/
theorem stepAt (t : Fin cfg0.N) (prev : Vec Ideal S1024x1 .f32 × Vec Ideal S1024x1 .f32 × Vec Ideal S1024x1 .f32)
    (p : Fin 1024) (r : Fin 8192) (hr : r.val = 1024 * (t.val / 16) + p.val) :
    (stepAcc mI c t prev).1 (ix2 p (0 : Fin 1))
        = prev.1 (ix2 p (0 : Fin 1)) + ∑ l : Fin 512, denTerm (xOf mI c) r (col (cblk t) l)
    ∧ (stepAcc mI c t prev).2.1 (ix2 p (0 : Fin 1))
        = prev.2.1 (ix2 p (0 : Fin 1)) + ∑ l : Fin 512, posTerm (xOf mI c) (labOf mI c) r (col (cblk t) l)
    ∧ (stepAcc mI c t prev).2.2 (ix2 p (0 : Fin 1))
        = prev.2.2 (ix2 p (0 : Fin 1)) + ∑ l : Fin 512, cntTerm (labOf mI c) r (col (cblk t) l) := by
  obtain ⟨g0, g1⟩ := coords_facts t
  have hq : ∀ d, (iblk mI c 0 t : S1024x128.Idx → EReal) (ix2 p d) = xOf mI c (ix2 r d) :=
    fun d => iblk0_apply mI c t p d r hr
  have hk : ∀ l d, (iblk mI c 1 t : S512x128.Idx → EReal) (ix2 l d) = xOf mI c (ix2 (col (cblk t) l) d) :=
    fun l d => iblk1_apply mI c t l d (col (cblk t) l) rfl
  have hql : (iblk mI c 2 t : S1024x1.Idx → BitVec 32) (ix2 p (0 : Fin 1)) = labOf mI c (ix1 r) :=
    iblk2_apply mI c t p r hr
  have hkl : ∀ l, (iblk mI c 3 t : S1x512.Idx → BitVec 32) (ix2 (0 : Fin 1) l) = labOf mI c (ix1 (col (cblk t) l)) :=
    fun l => iblk3_apply mI c t l (col (cblk t) l) rfl
  have hg : ∀ l : Fin 512, (1024 * (grid0.coords t 0).val + p.val = 512 * (grid0.coords t 1).val + l.val)
      ↔ r = col (cblk t) l := fun l => by
    rw [g0, g1, Fin.ext_iff, hr]
    exact Iff.rfl
  exact ⟨step1 (xOf mI c) (iblk mI c 0 t) (iblk mI c 1 t) (grid0.coords t) prev.1 p r (fun l => col (cblk t) l) hq hk hg,
    step2 (xOf mI c) (labOf mI c) (iblk mI c 0 t) (iblk mI c 1 t) (iblk mI c 2 t) (iblk mI c 3 t) (grid0.coords t) prev.2.1 p r
      (fun l => col (cblk t) l) hq hk hql hkl hg,
    step3 (labOf mI c) (iblk mI c 2 t) (iblk mI c 3 t) (grid0.coords t) prev.2.2 p r (fun l => col (cblk t) l) hql hkl hg⟩

/-- One more block on a prefix sum over the blocks. -/
theorem pre_step {M : Type*} [AddCommMonoid M] (f : Fin 8192 → M) (j : Fin 16) (a : M) (ha : a = pre f j.val) :
    a + ∑ l : Fin 512, f (col j l) = pre f (j.val + 1) := by
  rw [ha, pre_succ]

/-- THE RUNNING SUMS after the point at position `n`, at row `p` of the row block: the sums of the row's terms over
    the column blocks up to and including this one. -/
theorem acc_closed (n : ℕ) : ∀ (hn : n < cfg0.N) (p : Fin 1024) (r : Fin 8192), r.val = 1024 * (n / 16) + p.val →
    (accAt mI c n hn).1 (ix2 p (0 : Fin 1)) = pre (denTerm (xOf mI c) r) (n % 16 + 1)
    ∧ (accAt mI c n hn).2.1 (ix2 p (0 : Fin 1)) = pre (posTerm (xOf mI c) (labOf mI c) r) (n % 16 + 1)
    ∧ (accAt mI c n hn).2.2 (ix2 p (0 : Fin 1)) = pre (cntTerm (labOf mI c) r) (n % 16 + 1) := by
  induction n using Nat.strong_induction_on with
  | _ n ih =>
    intro hn p r hr
    have hj : (cblk ⟨n, hn⟩).val = n % 16 := rfl
    by_cases h0 : n % 16 = 0
    · have e := accAt_first mI c ⟨n, hn⟩ h0
      have z : (cblk ⟨n, hn⟩).val = 0 := h0
      obtain ⟨s1, s2, s3⟩ := stepAt mI c ⟨n, hn⟩ zeroAcc p r hr
      rw [show accAt mI c n hn = stepAcc mI c ⟨n, hn⟩ zeroAcc from e]
      refine ⟨s1.trans (pre_step _ (cblk ⟨n, hn⟩) _ ?_), s2.trans (pre_step _ (cblk ⟨n, hn⟩) _ ?_),
        s3.trans (pre_step _ (cblk ⟨n, hn⟩) _ ?_)⟩
      · rw [z, pre_zero]; exact (Pay.pay5_apply p).trans Ideal.ofBits_zero_f32
      · rw [z, pre_zero]; exact (Pay.pay6_apply p).trans Ideal.ofBits_zero_f32
      · rw [z, pre_zero]; exact (Pay.pay7_apply p).trans Ideal.ofBits_zero_f32
    · have e := accAt_next mI c ⟨n, hn⟩ h0
      obtain ⟨i1, i2, i3⟩ := ih (n - 1) (by omega) (Nat.lt_of_le_of_lt (Nat.sub_le _ _) hn) p r (by omega)
      have hm : (n - 1) % 16 + 1 = (cblk ⟨n, hn⟩).val := by rw [hj]; omega
      obtain ⟨s1, s2, s3⟩ := stepAt mI c ⟨n, hn⟩ (accAt mI c (n - 1) (Nat.lt_of_le_of_lt (Nat.sub_le _ _) hn)) p r hr
      rw [show accAt mI c n hn = stepAcc mI c ⟨n, hn⟩ (accAt mI c (n - 1) _) from e]
      exact ⟨s1.trans (pre_step _ (cblk ⟨n, hn⟩) _ (i1.trans (congrArg _ hm))),
        s2.trans (pre_step _ (cblk ⟨n, hn⟩) _ (i2.trans (congrArg _ hm))),
        s3.trans (pre_step _ (cblk ⟨n, hn⟩) _ (i3.trans (congrArg _ hm)))⟩

end Sums

/-! ## The row losses -/

section Loss
variable (mI : (ℓ : Loc nD τ sig) → Buf (Elt Ideal) ℓ) (c : Dev nD)

/-- The prefix sum over all sixteen blocks is the sum over the blocks. -/
theorem pre_all {M : Type*} [AddCommMonoid M] (f : Fin 8192 → M) :
    pre f 16 = ∑ j : Fin 16, ∑ l : Fin 512, f (col j l) := by
  unfold pre
  rw [Finset.filter_true_of_mem (fun j _ => j.isLt)]

/-- What the last column block of a row block stores at row `p`: the row's loss. -/
theorem out_loss (t : Fin cfg0.N) (h15 : t.val % 16 = 15) (p : Fin 1024) (r : Fin 8192)
    (hr : r.val = 1024 * (t.val / 16) + p.val) :
    outAt mI c t (ix2 p (0 : Fin 1)) = lossK (xOf mI c) (labOf mI c) r := by
  obtain ⟨a1, a2, a3⟩ := acc_closed mI c t.val t.isLt p r hr
  have e16 : t.val % 16 + 1 = 16 := by omega
  rw [e16, pre_all] at a1 a2 a3
  unfold outAt
  rw [Pay.pay4_apply, a1, a2, a3, Ideal.ofBits_zero_f32]
  unfold lossK possumK denomK
  rw [Cert.Bridge.cntK_closed]
  rfl

/-- THE OUTPUT ARRAY after the region, at row `r`: the row's loss. -/
theorem arr_loss (r : Fin 8192) :
    ((dats mI 0 c).arrAt 4 cfg0.N : S8192x1.Idx → EReal) (ix2 r (0 : Fin 1)) = lossK (xOf mI c) (labOf mI c) r := by
  refine (out_apply mI c r).trans ?_
  refine out_loss mI c (lastPt r.val r.isLt) (by rw [lastPt_val]; omega) _ r ?_
  rw [lastPt_val]
  show r.val = 1024 * ((16 * (r.val / 1024) + 15) / 16) + r.val % 1024
  omega

/-- The output array as a whole: each row's loss. -/
theorem arr_eq :
    ((dats mI 0 c).arrAt 4 cfg0.N : S8192x1.Idx → EReal) = fun y => lossK (xOf mI c) (labOf mI c) (y 0) := by
  funext y
  have hy1 : (y 1).val < 1 := idx2_lt1 y
  have hy : y = ix2 (y 0) (0 : Fin 1) := by
    funext a
    match a with
    | ⟨0, _⟩ => rfl
    | ⟨1, _⟩ => exact Fin.ext (by show (y 1).val = 0; omega)
  rw [hy]
  exact arr_loss mI c (y 0)

end Loss

end Cert.KernelIdeal.KVal

end
-- ==== Proof.KTail.lean ====
/-
  The kernel program's last host operations, read as one function of the row-loss array the kernel leaves and the labels.

  After the kernel region the program reshapes the [8192, 1] array of row losses to [8192], compares the labels with 0,
  counts the rows of class 0 (as 32-bit words, then converted), sums the class-0 rows' losses and divides by that count,
  sums the other rows' losses, and adds the two. These are the same operations, in the same order, as the reference's
  last ones, so the program's result is the reference's tail function of the row-loss vector and the labels; and no
  operation writes either argument array.
-/
import proofs.«173541_j78228534329348_1_alg».proof.Proof.KData
import proofs.«173541_j78228534329348_1_alg».proof.Proof.RefSide

set_option maxRecDepth 16384

noncomputable section

namespace Cert.KernelIdeal.KTail

open Cert.KernelIdeal Cert.KernelIdeal.Gen Cert.KernelIdeal.Hand
open Idealize.ShloMosaic Idealize.ShloMosaic.TcCoe Idealize.SL.Sem Idealize.ShloMosaic.ValueIdx Idealize.ShloMosaic.StableHlo

/-- An [8192, 1] array cast to [8192] reads, at i, the operand at (i, 0). -/
theorem shapeCast_col_apply {α : Type} (x : (⟨2, ![8192, 1]⟩ : Shape).Idx → α)
    (h : (⟨2, ![8192, 1]⟩ : Shape).ShapeCasts ⟨1, ![8192]⟩) (i : Fin 8192) :
    shapeCast ⟨1, ![8192]⟩ x h (ix1 i) = x (ix2 i (0 : Fin 1)) :=
  shapeCast_apply x h _ _ (by
    rw [Shape.rowMajor_val_two, Shape.rowMajor_val_one]
    show i.val * 1 + 0 = i.val
    omega)

/-- The operations after the region, from any buffer contents: the result buffer ends at the tail function of the
    reshaped result array of the region and the labels. -/
theorem tail_after (W : Valuation τ sig (Elt Ideal)) :
    StableHlo.after (hostOps1_4 (F := Ideal)) (StableHlo.after hostOps1_3 (StableHlo.after hostOps1_2
      (StableHlo.after hostOps1_1 (StableHlo.after hostOps1 W)))) (Proc.devRef .tc main_v14)
    = Cert.ReferenceIdeal.RefSide.Tail (shapeCast S8192 (W (Proc.devRef .tc main_v2)) shapeCasts_S8192x1_S8192)
        (W (Proc.devRef .tc main_arg1)) := by
  dsimp only [hostOps1, hostOps1_1, hostOps1_2, hostOps1_3, hostOps1_4]
  after_results_simp
  unfold Cert.ReferenceIdeal.RefSide.Tail
  rfl

section
variable (m : (ℓ : Loc nD τ sig) → Buf (Elt Ideal) ℓ)

/-- When the region is left its result array holds what the region's write-backs put there. -/
theorem Vmid_v2 (c : Dev nD) : Vmid m c (Proc.devRef .tc main_v2) = (dats m 0 c).arrAt 4 cfg0.N := by
  unfold Vmid
  exact Function.update_self _ _ _

/-- The two reshapes before the region write neither argument. -/
theorem V0_arg0 (c : Dev nD) : V0 m c (Proc.devRef .tc main_arg0) = m ((c.tc : Thread nD τ).loc main_arg0) := by
  show StableHlo.after hostOps0 (fun b => m (c, b)) (Proc.devRef .tc main_arg0) = _
  dsimp only [hostOps0]
  after_results_simp
theorem V0_arg1 (c : Dev nD) : V0 m c (Proc.devRef .tc main_arg1) = m ((c.tc : Thread nD τ).loc main_arg1) := by
  show StableHlo.after hostOps0 (fun b => m (c, b)) (Proc.devRef .tc main_arg1) = _
  dsimp only [hostOps0]
  after_results_simp

/-- Nor does the region: the arguments are as launched when it is left. -/
theorem Vmid_arg0 (c : Dev nD) : Vmid m c (Proc.devRef .tc main_arg0) = m ((c.tc : Thread nD τ).loc main_arg0) := by
  unfold Vmid
  rw [Function.update_of_ne (StableHlo.devRef_ne_of_ne (by decide))]
  exact V0_arg0 m c
theorem Vmid_arg1 (c : Dev nD) : Vmid m c (Proc.devRef .tc main_arg1) = m ((c.tc : Thread nD τ).loc main_arg1) := by
  unfold Vmid
  rw [Function.update_of_ne (StableHlo.devRef_ne_of_ne (by decide))]
  exact V0_arg1 m c

/-- No operation after the region writes an argument either: at the end of the program both are as launched. -/
theorem Vfin_arg0 (c : Dev nD) : Vfin m c (Proc.devRef .tc main_arg0) = m ((c.tc : Thread nD τ).loc main_arg0) := by
  unfold Vfin
  dsimp only [hostOps1, hostOps1_1, hostOps1_2, hostOps1_3, hostOps1_4]
  after_results_simp
  exact Vmid_arg0 m c
theorem Vfin_arg1 (c : Dev nD) : Vfin m c (Proc.devRef .tc main_arg1) = m ((c.tc : Thread nD τ).loc main_arg1) := by
  unfold Vfin
  dsimp only [hostOps1, hostOps1_1, hostOps1_2, hostOps1_3, hostOps1_4]
  after_results_simp
  exact Vmid_arg1 m c

/-- The program's result: the tail function of the vector of row losses the region leaves (row r's in the result
    array at (r, 0)) and the labels. -/
theorem result_eq_tail (c : Dev nD) (L : Fin 8192 → EReal)
    (hL : ∀ r : Fin 8192, ((dats m 0 c).arrAt 4 cfg0.N) (ix2 r (0 : Fin 1)) = L r) :
    Vfin m c (Proc.devRef .tc main_v14)
      = Cert.ReferenceIdeal.RefSide.Tail (fun i => L (i 0)) (m ((c.tc : Thread nD τ).loc main_arg1)) := by
  unfold Vfin
  rw [tail_after, Vmid_v2, Vmid_arg1]
  refine congrArg (fun l => Cert.ReferenceIdeal.RefSide.Tail l (m ((c.tc : Thread nD τ).loc main_arg1))) (funext fun i => ?_)
  obtain ⟨r, rfl⟩ : ∃ r : Fin 8192, i = ix1 r := ⟨i 0, eq_ix1 i⟩
  exact (shapeCast_col_apply _ _ r).trans (hL r)

end

end Cert.KernelIdeal.KTail

end
-- ==== Proof.WBase.lean ====
import proofs.«173541_j78228534329348_1_alg».proof.Proof.Gen.Kernel.Launch
import proofs.«173541_j78228534329348_1_alg».proof.Proof.Gen.Kernel.Skeleton
import proofs.«173541_j78228534329348_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken exactly at the first column block of a row block. -/
abbrev condFirst (i : grid0.Coords) : Prop := (Scalar.cmpi .ne (Scalar.extui (Scalar.cmpi .eq (BitVec.ofNat 32 (i 1).val) 0#32)) 0#32) = 1#1
/-- The second branch is taken exactly at the last column block of a row block. -/
abbrev condLast (i : grid0.Coords) : Prop := k0_cond2 i = 1#1

/-- The zero offsets of a whole-block access, however spelt. -/
theorem hz : (![0, 0] : Fin 2 → Nat) = fun _ => 0 := funext fun a => by fin_cases a <;> rfl

end Cert.Kernel.Hand

end
-- ==== Proof.WData.lean ====
import proofs.«173541_j78228534329348_1_alg».proof.Proof.WBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the two reshapes of the labels have run. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions in closed form -/

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-! ## The running sums, point by point -/

/-- The staging memrefs at a point, as the pipeline passes them, and the three scratch buffers. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2

/-- One column block's contribution added to the three running sums `p` at point `t`. -/
def stepAcc (c : Dev nD) (t : Fin cfg0.N) (p : Vec F S1024x1 .f32 × Vec F S1024x1 .f32 × Vec F S1024x1 .f32) :
    Vec F S1024x1 .f32 × Vec F S1024x1 .f32 × Vec F S1024x1 .f32 :=
  (k0_pay1 (k0_pay8 (iblk m c 0 t) (iblk m c 1 t)) (k0_pay9 (grid0.coords t)) p.1,
   k0_pay2 (k0_pay8 (iblk m c 0 t) (iblk m c 1 t)) (k0_pay10 (grid0.coords t) (iblk m c 2 t) (iblk m c 3 t)) p.2.1,
   k0_pay3 (k0_pay10 (grid0.coords t) (iblk m c 2 t) (iblk m c 3 t)) p.2.2)

/-- The cleared sums. -/
def zeroAcc : Vec F S1024x1 .f32 × Vec F S1024x1 .f32 × Vec F S1024x1 .f32 := (k0_pay5, k0_pay6, k0_pay7)

/-- What the three scratch buffers hold after the body at position `n`: the sums over the column blocks of the
    current row block up to and including this one (cleared at the first column block of each row block). -/
def accAt (c : Dev nD) : (n : ℕ) → n < cfg0.N → Vec F S1024x1 .f32 × Vec F S1024x1 .f32 × Vec F S1024x1 .f32
  | 0, hn => stepAcc m c ⟨0, hn⟩ zeroAcc
  | n + 1, hn => stepAcc m c ⟨n + 1, hn⟩ (if (n + 1) % 16 = 0 then zeroAcc else accAt c n (Nat.lt_of_succ_lt hn))

theorem accAt_first (c : Dev nD) (t : Fin cfg0.N) (h0 : t.val % 16 = 0) : accAt m c t.val t.isLt = stepAcc m c t zeroAcc := by
  obtain ⟨n, hn⟩ := t
  cases n with
  | zero => rfl
  | succ n => exact congrArg (stepAcc m c ⟨n + 1, hn⟩) (if_pos h0)

theorem accAt_next (c : Dev nD) (t : Fin cfg0.N) (h0 : ¬ t.val % 16 = 0) :
    accAt m c t.val t.isLt = stepAcc m c t (accAt m c (t.val - 1) (Nat.lt_of_le_of_lt (Nat.sub_le _ _) t.isLt)) := by
  obtain ⟨n, hn⟩ := t
  cases n with
  | zero => exact absurd (Nat.zero_mod _) h0
  | succ n => exact congrArg (stepAcc m c ⟨n + 1, hn⟩) (if_neg h0)

/-- The row losses the last column block writes to the output block: minus (the similarity sum minus the count
    times the logarithm of the exponential sum). -/
def outAt (c : Dev nD) (t : Fin cfg0.N) : Vec F S1024x1 .f32 :=
  k0_pay4 (accAt m c t.val t.isLt).2.1 (accAt m c t.val t.isLt).2.2 (accAt m c t.val t.isLt).1

/-! ## The region's invariant and the proof data -/

/-- The scratch buffers before position `n`: at anything before the first point, then at the running sums the
    point before left. -/
def PhiS (c : Dev nD) : (n : ℕ) → n ≤ cfg0.N → sProp 𝕄
  | 0, _ => iprop((∃ d, owns (c : Thread nD τ) sc0 fullShare d) ∗ (∃ d, owns (c : Thread nD τ) sc1 fullShare d) ∗ (∃ d, owns (c : Thread nD τ) sc2 fullShare d))
  | n + 1, hn => iprop(owns (c : Thread nD τ) sc0 fullShare (accAt m c n hn).1 ∗ owns (c : Thread nD τ) sc1 fullShare (accAt m c n hn).2.1
      ∗ owns (c : Thread nD τ) sc2 fullShare (accAt m c n hn).2.2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d) ∗ (∃ d, owns (c : Thread nD τ) sc2 fullShare d)) := by
  subst hz; rfl

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2.1
      ∗ owns (c : Thread nD τ) sc2 fullShare (accAt m c n hn).2.2) := rfl

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2.1
      ∗ owns (c : Thread nD τ) sc2 fullShare (accAt m c (n - 1) (by omega)).2.2) := by
  cases n with
  | zero => exact absurd rfl hz
  | succ n => rfl

/-- Whatever the scratch buffers are known to hold, they hold something. -/
theorem PhiS_any (c : Dev nD) (n : ℕ) (h : n ≤ cfg0.N) :
    PhiS m c n h ⊢ iprop((∃ d, owns (c : Thread nD τ) sc0 fullShare d) ∗ (∃ d, owns (c : Thread nD τ) sc1 fullShare d) ∗ (∃ d, owns (c : Thread nD τ) sc2 fullShare d)) := by
  cases n with
  | zero => exact .rfl
  | succ n =>
    rw [PhiS_succ]
    iintro ⟨H0, H1, H2⟩
    isplitl [H0]; · iexists _; iexact H0
    isplitl [H1]; · iexists _; iexact H1
    iexists _; iexact H2

/-- The proof data on core `c`: the arrays as the region finds them; after the body each input's buffer at its
    block and the output's at the row losses; the scratch buffers' contents as the invariant; nothing owed; the two
    windows onto the embeddings each hold half of that array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The buffers after the region and at the end of @main -/

/-- Core `c`'s buffers when the region is left: the row losses in the kernel's result array (what the write-backs
    of the last column blocks put there), every other buffer as the region found it. -/
def Vmid (c : Dev nD) : Valuation τ sig (Elt F) :=
  Function.update (V0 m c) (Proc.devRef .tc main_v2) ((dats m 0 c).arrAt 4 cfg0.N)

/-- and at the end of @main: the reshape, the two masked sums, the quotient by the number of zero labels and the
    final sum have run. -/
def Vfin (c : Dev nD) : Valuation τ sig (Elt F) :=
  StableHlo.after hostOps1_4 (StableHlo.after hostOps1_3 (StableHlo.after hostOps1_2 (StableHlo.after hostOps1_1 (StableHlo.after hostOps1 (Vmid m c)))))

end Cert.Kernel.Hand

end
-- ==== Proof.WFin.lean ====
/-
  The program's final read-back: from the points-to of every unscoped buffer at the end-of-program contents, read
  against the state interpretation, the memory holds the result buffer's end contents and both argument arrays as
  launched (no operation of the program writes an argument).
-/
import proofs.«173541_j78228534329348_1_alg».proof.Proof.WData
import Idealize.ShloMosaic.Lib.StableHlo.Run
import Idealize.ShloMosaic.Lib.Pipeline.Regions

set_option maxRecDepth 16384

noncomputable section

namespace Cert.Kernel.KFin

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)

variable {F : FTy → Type} [FloatOps F]

local notation "𝕄" => MT nD τ sig Unit (Elt F) ℕ (UR sig nD τ) ℕ

variable (m : (ℓ : Loc nD τ sig) → Buf (Elt F) ℓ)

/-! ## No operation writes an argument -/

/-- The two reshapes before the region write neither argument. -/
theorem V0_arg0 (c : Dev nD) : V0 m c (Proc.devRef .tc main_arg0) = m ((c : Thread nD τ).loc main_arg0) := by
  show StableHlo.after hostOps0 (fun b => m (c, b)) (Proc.devRef .tc main_arg0) = _
  dsimp only [hostOps0]
  after_results_simp
theorem V0_arg1 (c : Dev nD) : V0 m c (Proc.devRef .tc main_arg1) = m ((c : Thread nD τ).loc main_arg1) := by
  show StableHlo.after hostOps0 (fun b => m (c, b)) (Proc.devRef .tc main_arg1) = _
  dsimp only [hostOps0]
  after_results_simp

/-- Nor does the region: the arguments are as launched when it is left. -/
theorem Vmid_arg0 (c : Dev nD) : Vmid m c (Proc.devRef .tc main_arg0) = m ((c : Thread nD τ).loc main_arg0) := by
  unfold Vmid
  rw [Function.update_of_ne (StableHlo.devRef_ne_of_ne (by decide))]
  exact V0_arg0 m c
theorem Vmid_arg1 (c : Dev nD) : Vmid m c (Proc.devRef .tc main_arg1) = m ((c : Thread nD τ).loc main_arg1) := by
  unfold Vmid
  rw [Function.update_of_ne (StableHlo.devRef_ne_of_ne (by decide))]
  exact V0_arg1 m c

/-- No operation after the region writes an argument either: at the end of the program both are as launched. -/
theorem Vfin_arg0 (c : Dev nD) : Vfin m c (Proc.devRef .tc main_arg0) = m ((c : Thread nD τ).loc main_arg0) := by
  unfold Vfin
  dsimp only [hostOps1, hostOps1_1, hostOps1_2, hostOps1_3, hostOps1_4]
  after_results_simp
  exact Vmid_arg0 m c
theorem Vfin_arg1 (c : Dev nD) : Vfin m c (Proc.devRef .tc main_arg1) = m ((c : Thread nD τ).loc main_arg1) := by
  unfold Vfin
  dsimp only [hostOps1, hostOps1_1, hostOps1_2, hostOps1_3, hostOps1_4]
  after_results_simp
  exact Vmid_arg1 m c

/-! ## The read-back -/

/-- A value of the program is an unscoped TensorCore buffer. -/
theorem mem_ucRefs (b : Ref sig .tc) (hb : (Proc.devRef (τ := τ) .tc b).isScoped = false) :
    Proc.devRef .tc b ∈ Pipeline.ucRefs τ sig :=
  Finset.mem_filter.mpr ⟨StableHlo.devRef_mem_tcRefs b, fun h => Bool.false_ne_true (hb.symm.trans h)⟩

/-- Every unscoped buffer held at the end-of-program contents, read against a final state: the memory has the result
    buffer at its end contents and both arguments as launched. -/
theorem fin_read (c : Dev nD) (s' : Phys nD τ sig (Elt F)) :
    iprop((StableHlo.held (c : Thread nD τ) (Pipeline.ucRefs τ sig) (Vfin m c) : sProp 𝕄) ∗ SI s')
      ⊢ |={Set.univ}=> iprop(⌜s'.mem.mem ((c : Thread nD τ).loc main_v14) = Vfin m c (Proc.devRef .tc main_v14)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') := by
  unfold StableHlo.held
  iintro ⟨H, HSI⟩
  ihave H' := (pointsTo_read_all (Pipeline.ucRefs τ sig) (fun b => ((c : Thread nD τ).1, b)) (Vfin m c) s') $$ [H HSI]
  · isplitl [H] <;> iassumption
  icases H' with ⟨%h, HSI⟩
  imodintro
  isplitr
  · ipureintro
    exact ⟨h _ (mem_ucRefs main_v14 rfl), (h _ (mem_ucRefs main_arg0 rfl)).trans (Vfin_arg0 m c),
      (h _ (mem_ucRefs main_arg1 rfl)).trans (Vfin_arg1 m c)⟩
  · iexact HSI

end Cert.Kernel.KFin

end
-- ==== Proof.WLaunch.lean ====
/-
  THE LAUNCH of the kernel program. @main is seven segments: the two reshapes of the labels, ONE kernel region — a
  pipeline of five windows over a grid of 8 × 16 points, the first two windows both onto the embeddings (a row block
  and a column block) —, and five stretches of host operations that reduce the row losses to the result. The run is the
  library's theorem for @main as a list of segments: each host stretch runs over the core's unscoped buffers held
  whole; the region takes the four buffers behind its five windows' arrays — the embeddings' buffer in two halves of
  its share, one per window onto it —, the three scratch buffers into its invariant, and lets every other unscoped
  buffer bypass; it leaves the result array at the row losses the write-backs put there and every other buffer as
  found, the two halves joined again.
-/
import proofs.«173541_j78228534329348_1_alg».proof.Proof.WData
import proofs.«173541_j78228534329348_1_alg».proof.Proof.WFin
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's own. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through the host operations: the core's `owes`. -/
abbrev R (c : Dev nD) : sProp 𝕄 := iprop(∃ W, owes (c : Thread nD τ) (0 : CellTallies nD τ sig Unit) W)

/-- The unscoped buffers of the TensorCore. -/
abbrev uc : Finset (DevRef τ sig) := Pipeline.ucRefs τ sig

/-- The buffers after each stretch of host operations that follows the region. -/
abbrev W1 (c : Dev nD) : Valuation τ sig (Elt F) := StableHlo.after hostOps1 (Vmid m c)
abbrev W2 (c : Dev nD) : Valuation τ sig (Elt F) := StableHlo.after hostOps1_1 (W1 m c)
abbrev W3 (c : Dev nD) : Valuation τ sig (Elt F) := StableHlo.after hostOps1_2 (W2 m c)
abbrev W4 (c : Dev nD) : Valuation τ sig (Elt F) := StableHlo.after hostOps1_3 (W3 m c)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h
theorem fresh1_3 : ∀ op ∈ (hostOps1_3 : List (HloOp τ sig (Elt F))), op.fresh = ∅ := by
  intro _ h; (repeat (cases h with | head => rfl | tail _ h => ?_)); exact nomatch h
theorem fresh1_4 : ∀ op ∈ (hostOps1_4 : List (HloOp τ sig (Elt F))), op.fresh = ∅ := by
  intro _ h; (repeat (cases h with | head => rfl | tail _ h => ?_)); exact nomatch h

/-- THE HOST SEGMENT before the region: the two reshapes of the labels. -/
def seg0 : Pipeline.HostSeg (Name := ℕ) (U := UR sig nD τ) (pcfgs (F := F)) defs₀ 𝒱₀ L lv :=
  Pipeline.HostSeg.ofOps _ _ _ _ _ uc hostOps0 (fun op h => Pipeline.sub_ucRefs op ((List.forall_iff_forall_mem.mp hostOps0_sub) op h))
    fresh0 (fun c b => m (c, b)) R

/-- The five host segments after the region, each from the buffers the one before left. -/
def seg1 : Pipeline.HostSeg (Name := ℕ) (U := UR sig nD τ) (pcfgs (F := F)) defs₀ 𝒱₀ L lv :=
  Pipeline.HostSeg.ofOps _ _ _ _ _ uc hostOps1 (fun op h => Pipeline.sub_ucRefs op ((List.forall_iff_forall_mem.mp hostOps1_sub) op h))
    fresh1 (Vmid m) R
def seg2 : Pipeline.HostSeg (Name := ℕ) (U := UR sig nD τ) (pcfgs (F := F)) defs₀ 𝒱₀ L lv :=
  Pipeline.HostSeg.ofOps _ _ _ _ _ uc hostOps1_1 (fun op h => Pipeline.sub_ucRefs op ((List.forall_iff_forall_mem.mp hostOps1_1_sub) op h))
    fresh1_1 (W1 m) R
def seg3 : Pipeline.HostSeg (Name := ℕ) (U := UR sig nD τ) (pcfgs (F := F)) defs₀ 𝒱₀ L lv :=
  Pipeline.HostSeg.ofOps _ _ _ _ _ uc hostOps1_2 (fun op h => Pipeline.sub_ucRefs op ((List.forall_iff_forall_mem.mp hostOps1_2_sub) op h))
    fresh1_2 (W2 m) R
def seg4 : Pipeline.HostSeg (Name := ℕ) (U := UR sig nD τ) (pcfgs (F := F)) defs₀ 𝒱₀ L lv :=
  Pipeline.HostSeg.ofOps _ _ _ _ _ uc hostOps1_3 (fun op h => Pipeline.sub_ucRefs op ((List.forall_iff_forall_mem.mp hostOps1_3_sub) op h))
    fresh1_3 (W3 m) R
def seg5 : Pipeline.HostSeg (Name := ℕ) (U := UR sig nD τ) (pcfgs (F := F)) defs₀ 𝒱₀ L lv :=
  Pipeline.HostSeg.ofOps _ _ _ _ _ uc hostOps1_4 (fun op h => Pipeline.sub_ucRefs op ((List.forall_iff_forall_mem.mp hostOps1_4_sub) op h))
    fresh1_4 (W4 m) R

/-! ## The arrays the region takes: four buffers behind five windows -/

section Arrays
variable (c : Dev nD)

/-- The scoped buffers no window stages are the three scratch buffers, as the invariant holds them before the first point. -/
theorem scoped_eq_Phi0 :
    (Pipeline.scopedRest (Ix := Unit) (Name := ℕ) (U := UR sig nD τ) (Lvl := ℕ) (Val := Elt F) spec0 c : sProp 𝕄)
      = PhiS m c 0 (Nat.zero_le _) := by
  rw [PhiS_zero m c 0 _ rfl, scopedRest0_eq]; simp only [sc0, sc1, sc2, owns_whole]; rfl

/-- The buffers behind the windows' arrays, one by one. -/
theorem arrBufs_eq (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2) ↦{fullShare} Vv main_v2)) := by
  unfold Pipeline.arrBufs
  rw [bigSep_eq_bigSepL_of_eq [main_arg0, main_v0, main_v1, main_v2] (by decide) (by decide)]
  rfl

/-- The pipeline's arrays, window by window: the two windows onto the embeddings hold a half each. -/
theorem arrays_eq (Fn : (w : Fin cfg0.W) → Buf (Elt F) ((cfg0.win w).arr.view.loc (c : Thread nD τ))) :
    ((dats m 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v0) ↦{fullShare} Fn 2) ∗ (((c : Thread nD τ).loc main_v1) ↦{fullShare} Fn 3)
          ∗ (((c : Thread nD τ).loc main_v2) ↦{fullShare} Fn 4)) := by
  have e : ((dats m 0 c).arrays Fn : sProp 𝕄)
      = bigSep Finset.univ fun w : Fin cfg0.W => ((((c : Thread nD τ).loc (Pipeline.arrRef spec0 w)) ↦{(dats m 0 c).share w} Fn w : sProp 𝕄)) := by
    unfold Dat.arrays
    exact bigSep_congr fun w _ => by rw [(arr_whole0 w).set_eq_univ]
  rw [e, bigSep_W0]
  rfl

end Arrays

section Sorting
variable (c : Dev nD)

/-- The core's buffers when the region is left, as a function of TensorCore references. -/
abbrev Vm (b : Ref sig .tc) : Buf (Elt F) ((c : Thread nD τ).loc b) := Vmid m c (Proc.devRef .tc b)

/-- ENTRY, the arrays: the four buffers at what the region finds are the pipeline's five arrays at their entry contents,
    the embeddings' buffer split into its two halves. -/
theorem entry_arrays :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H2, H3, H4⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

/-- An input's array is never written. -/
theorem arrAt_in0 : (dats m 0 c).arrAt 0 cfg0.N = V m c main_arg0 := (dats m 0 c).arrAt_in 0 rfl _
theorem arrAt_in1 : (dats m 0 c).arrAt 1 cfg0.N = V m c main_arg0 := (dats m 0 c).arrAt_in 1 rfl _
theorem arrAt_in2 : (dats m 0 c).arrAt 2 cfg0.N = V m c main_v0 := (dats m 0 c).arrAt_in 2 rfl _
theorem arrAt_in3 : (dats m 0 c).arrAt 3 cfg0.N = V m c main_v1 := (dats m 0 c).arrAt_in 3 rfl _

/-- The buffers at the region's exit: the result array at the row losses, -/
theorem Vm_v2 : Vm m c main_v2 = (dats m 0 c).arrAt 4 cfg0.N := by
  unfold Vm Vmid; rw [Function.update_self]
/-- every other buffer as found. -/
theorem Vm_of_ne (b : Ref sig .tc) (hb : b ≠ main_v2) : Vm m c b = V m c b := by
  unfold Vm Vmid; rw [Function.update_of_ne (StableHlo.devRef_ne_of_ne hb)]

/-- EXIT, the arrays: the pipeline's five arrays at their final contents are the four buffers at the exit contents, the
    embeddings' two halves joined. -/
theorem exit_arrays :
    ((dats m 0 c).arrays ((dats m 0 c).arrAt · cfg0.N) : sProp 𝕄)
      ⊢ Pipeline.arrBufs (Ix := Unit) (Name := ℕ) (U := UR sig nD τ) (Lvl := ℕ) spec0 c (Vm m c) := by
  rw [arrBufs_eq, arrays_eq, arrAt_in0, arrAt_in1, arrAt_in2, arrAt_in3, Vm_v2,
    Vm_of_ne m c main_arg0 (by decide), Vm_of_ne m c main_v0 (by decide), Vm_of_ne m c main_v1 (by decide)]
  iintro ⟨H0l, H0r, H2, H3, H4⟩
  ihave H0 := (pointsTo_share (PosShare.mem_left_op_right fullShare)).2 $$ [H0l H0r]
  · isplitl [H0l] <;> iassumption
  isplitl [H0]; · iexact H0
  isplitl [H2]; · iexact H2
  isplitl [H3]; · iexact H3
  iexact H4

/-- The unscoped buffers that are no window's array are the same at the entry and at the exit contents. -/
theorem rest_eq :
    (Pipeline.unscopedRest (Ix := Unit) (Name := ℕ) (U := UR sig nD τ) (Lvl := ℕ) spec0 c (V m c) : sProp 𝕄)
      = Pipeline.unscopedRest spec0 c (Vm m c) := by
  unfold Pipeline.unscopedRest
  refine bigSep_congr fun b hb => ?_
  rw [Vm_of_ne m c b fun e => (Finset.mem_sdiff.mp hb).2 (e ▸ Finset.mem_image.mpr ⟨4, Finset.mem_univ _, rfl⟩)]

/-- The unscoped buffers split into the arrays' and the rest, at any contents. -/
theorem ub_split (Vv : (b : Ref sig .tc) → Buf (Elt F) ((c : Thread nD τ).loc b)) :
    (unscopedBufs (Ix := Unit) (Name := ℕ) (U := UR sig nD τ) (Lvl := ℕ) c Vv : sProp 𝕄)
      = iprop(Pipeline.arrBufs spec0 c Vv ∗ Pipeline.unscopedRest spec0 c Vv) :=
  Pipeline.unscopedBufs_split₀ cfgs 0 winFacts₀0.arr_unscoped c Vv

end Sorting

section Ends
variable (c : Dev nD)

/-- The invariant after the last point: the scratch buffers at the last running sums. -/
theorem Phi_last : (dats m 0 c).Φ (Fin.last cfg0.N) = PhiS m c cfg0.N (Nat.le_refl _) := by
  dsimp only [dats]; simp only [Fin.val_last]

/-- The invariant before the first point is the scoped buffers no window stages. -/
theorem hin_ent :
    iprop(iprop(emp) ∗ Pipeline.prefHeld (pcfgs (F := F) 0).pre c (fun _ => fullShare) (adm (F := F) 0).1 ∗ Pipeline.scopedRest spec0 c)
      ⊢ ((dats m 0 c).Φ 0 : sProp 𝕄) := by
  show _ ⊢ PhiS m c 0 (Nat.zero_le _)
  rw [scoped_eq_Phi0]
  iintro ⟨-, -, Hr⟩; iexact Hr

/-- The invariant after the last point gives those buffers back, at something. -/
theorem hout_ent :
    ((dats m 0 c).Φ (Fin.last cfg0.N) : sProp 𝕄)
      ⊢ iprop(iprop(emp) ∗ Pipeline.ownSems0 (fun k : PEmpty => k.elim) c ∗ Pipeline.scopedRest spec0 c) := by
  rw [Phi_last]
  refine (PhiS_any m c _ _).trans ?_
  rw [Pipeline.ownSems0_none, scoped_eq_Phi0 m c, PhiS_zero m c 0 (Nat.zero_le _) rfl]
  iintro H; isplitr; · iempintro
  isplitr; · iempintro
  iexact H

end Ends

/-! ## The region -/

section Region

set_option backward.isDefEq.respectTransparency.types false in
/-- THE REGION: entered from what the first host segment left — the four arrays into the pipeline (the embeddings' in
    two halves, one per window onto it), the other unscoped buffers bypassing —, left with the result array at the row
    losses and everything else as found. -/
def reg0 (hbody : ∀ c, BodyObligation (dats (F := F) m 0 c) (defs₀ (F := F)) Variants.none () Set.univ) : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 fun _ _ => rfl
  pre c := iprop(StableHlo.held (c : Thread nD τ) uc (V0 m c) ∗ R c)
  post c := iprop(StableHlo.held (c : Thread nD τ) uc (Vmid m c) ∗ R c)
  X c := iprop(emp)
  Y c := iprop(emp)
  Z c := Pipeline.unscopedRest spec0 c (V m c)
  hentry c := by
    rw [show StableHlo.held (c : Thread nD τ) uc (V0 m c) = unscopedBufs c (V m c) from (Pipeline.unscopedBufs_held c (V0 m c)).symm,
      ub_split]
    iintro ⟨⟨⟨Ha, Hr⟩, HO⟩, -, -⟩
    ihave Ha := (entry_arrays m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := hin_ent m c
  hout c := hout_ent m c
  hexit c := by
    rw [show StableHlo.held (c : Thread nD τ) uc (Vmid m c) = unscopedBufs c (Vm m c) from (Pipeline.unscopedBufs_held c (Vmid m c)).symm,
      ub_split, ← rest_eq]
    iintro ⟨Ha, HO, -, HZ⟩
    ihave Ha := (exit_arrays m c) $$ Ha
    imodintro
    isplitr [HO]
    · isplitl [Ha]; · iexact Ha
      iexact HZ
    · unfold Pipeline.Dat.owesAt Pipeline.owesWithin
      icases HO with ⟨%W, -, HO⟩; iexists W; iexact HO

/-- @main as the list of the seven. -/
abbrev segs (hbody : ∀ c, BodyObligation (dats (F := F) m 0 c) (defs₀ (F := F)) Variants.none () Set.univ) : List (Pipeline.Seg (pcfgs (F := F)) adm (dats m) () defs₀ 𝒱₀ L lv) :=
  [.host (seg0 m), .region (reg0 m hbody), .host (seg1 m), .host (seg2 m), .host (seg3 m), .host (seg4 m), .host (seg5 m)]

/-- What the last host segment leaves. -/
abbrev Tₙ (c : Dev nD) : sProp 𝕄 := StableHlo.held (c : Thread nD τ) uc (Vfin m c)

set_option backward.isDefEq.respectTransparency.types false in
/-- At the compiled mesh, from any memory with zero counters: every weakly fair execution of @main on the TensorCores
    terminates, and every final state has the result at what the host operations after the region compute from the
    row losses, and both arguments unchanged. -/
theorem run_main (hbody : ∀ c, BodyObligation (dats (F := F) m 0 c) (defs₀ (F := F)) Variants.none () Set.univ) : θ_run defs (onTc (τ := τ) (main (F := F))) (s₀ m ρ) (fun r => ∀ c : Dev nD,
      r.2.mem ((c : Thread nD τ).loc main_v14) = Vfin m c (Proc.devRef .tc main_v14)
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) adm (dats m) () cellOf_inj EP defs₀ 𝒱₀ L lv m ρ main (segs m hbody)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (fun b => m (c, b)) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (fun b => m (c, b)) from Pipeline.unscopedBufs_held c (fun b => m (c, b))]
      iintro ⟨⟨Hh, -, HO, -, -, -⟩, -⟩
      imodintro
      isplitl [Hh]; · iexact Hh
      iexists ∅; iexact HO)
    (QY := fun c s => s.mem ((c : Thread nD τ).loc main_v14) = Vfin m c (Proc.devRef .tc main_v14)
      ∧ s.mem ((c : Thread nD τ).loc main_arg0) = m ((c : Thread nD τ).loc main_arg0)
      ∧ s.mem ((c : Thread nD τ).loc main_arg1) = m ((c : Thread nD τ).loc main_arg1))
    (hfin := fun c s' => Cert.Kernel.KFin.fin_read m c s')
    (hQ := fun _ h => h)

end Region

end Cert.Kernel.Hand

end
-- ==== Proof.WRuns.lean ====
import proofs.«173541_j78228534329348_1_alg».proof.Proof.WBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging buffers, case by case

The body keeps three running row sums (the exponentials off the diagonal, the similarities of the equally
labelled off-diagonal pairs, and their count) in scratch buffers across the column blocks of one row block:
it clears them at the first column block, adds this block's lane sums at every column block, and at the last
one writes the row losses to the output block. -/

set_option maxHeartbeats 4000000 in
/-- A middle column block: the running sums are extended by this block's contribution; the output block is not touched. -/
theorem runMid (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : ¬condLast i)
    (x0 : Vec F S1024x128 .f32) (x1 : Vec F S512x128 .f32) (x2 : Vec F S1024x1 .i32) (x3 : Vec F S1x512 .i32) (x6 : Vec F S1024x1 .f32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x6
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x6
            ∗ owns (c : Thread nD τ) arg7 fullShare (k0_pay1 (k0_pay8 x0 x1) (k0_pay9 i) a0)
            ∗ owns (c : Thread nD τ) arg8 fullShare (k0_pay2 (k0_pay8 x0 x1) (k0_pay10 i x2 x3) a1)
            ∗ owns (c : Thread nD τ) arg9 fullShare (k0_pay3 (k0_pay10 i x2 x3) a2)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%f6, %hf6, H6⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3; obtain rfl := harg6.eq_unread hf6
  obtain rfl := harg7.eq_unread hg0; obtain rfl := harg8.eq_unread hg1; obtain rfl := harg9.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [HS0]
  · iexists _; isplitr; swap; · iexact HS0
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  isplitl [HS1]
  · iexists _; isplitr; swap; · iexact HS1
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  · iexists _; isplitr; swap; · iexact HS2
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]

set_option maxHeartbeats 4000000 in
/-- The first column block of a row block: the running sums are cleared, then extended by this block's contribution. -/
theorem runFirst (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : condFirst i) (hc1 : ¬condLast i)
    (x0 : Vec F S1024x128 .f32) (x1 : Vec F S512x128 .f32) (x2 : Vec F S1024x1 .i32) (x3 : Vec F S1x512 .i32) (x6 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x6
            ∗ owns (c : Thread nD τ) arg7 fullShare (k0_pay1 (k0_pay8 x0 x1) (k0_pay9 i) k0_pay5)
            ∗ owns (c : Thread nD τ) arg8 fullShare (k0_pay2 (k0_pay8 x0 x1) (k0_pay10 i x2 x3) k0_pay6)
            ∗ owns (c : Thread nD τ) arg9 fullShare (k0_pay3 (k0_pay10 i x2 x3) k0_pay7)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%f6, %hf6, H6⟩, ⟨%e0, %g0, -, HS0⟩, ⟨%e1, %g1, -, HS1⟩, ⟨%e2, %g2, -, HS2⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg6.read_unread _
    iexact H6
  isplitl [HS0]
  · iexists _; isplitr; swap; · iexact HS0
    ipureintro
    rw [View.read_writes_eq_canon _ _ _ (fun y => ⟨_, List.mem_cons_self, View.mem_set_unit_zero hz inb_S1024x1_S1024x1_0_0 y⟩), View.canon_cons_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congrArg _ (View.readCov_unit_zero (S := S1024x1) _ hz inb_S1024x1_S1024x1_0_0 _)
  isplitl [HS1]
  · iexists _; isplitr; swap; · iexact HS1
    ipureintro
    rw [View.read_writes_eq_canon _ _ _ (fun y => ⟨_, List.mem_cons_self, View.mem_set_unit_zero hz inb_S1024x1_S1024x1_0_0 y⟩), View.canon_cons_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congrArg _ (View.readCov_unit_zero (S := S1024x1) _ hz inb_S1024x1_S1024x1_0_0 _)
  · iexists _; isplitr; swap; · iexact HS2
    ipureintro
    rw [View.read_writes_eq_canon _ _ _ (fun y => ⟨_, List.mem_cons_self, View.mem_set_unit_zero hz inb_S1024x1_S1024x1_0_0 y⟩), View.canon_cons_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congrArg _ (View.readCov_unit_zero (S := S1024x1) _ hz inb_S1024x1_S1024x1_0_0 _)

set_option maxHeartbeats 4000000 in
/-- The last column block: the running sums are extended by this block's contribution and the row losses are
    written to the output block. -/
theorem runLast (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : condLast i)
    (x0 : Vec F S1024x128 .f32) (x1 : Vec F S512x128 .f32) (x2 : Vec F S1024x1 .i32) (x3 : Vec F S1x512 .i32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 (k0_pay8 x0 x1) (k0_pay10 i x2 x3) a1) (k0_pay3 (k0_pay10 i x2 x3) a2) (k0_pay1 (k0_pay8 x0 x1) (k0_pay9 i) a0))
            ∗ owns (c : Thread nD τ) arg7 fullShare (k0_pay1 (k0_pay8 x0 x1) (k0_pay9 i) a0)
            ∗ owns (c : Thread nD τ) arg8 fullShare (k0_pay2 (k0_pay8 x0 x1) (k0_pay10 i x2 x3) a1)
            ∗ owns (c : Thread nD τ) arg9 fullShare (k0_pay3 (k0_pay10 i x2 x3) a2)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%d6, %f6, -, H6⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg7.eq_unread hg0; obtain rfl := harg8.eq_unread hg1; obtain rfl := harg9.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; swap; · iexact H6
    ipureintro
    rw [View.read_writes_eq_canon _ _ _ (fun y => ⟨_, List.mem_singleton_self _, View.mem_set_unit_zero hz inb_S1024x1_S1024x1_0_0 y⟩), View.canon_unit_zero hz]
    sl_unfold_words
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
    exact congr (congr (congrArg k0_pay4 (View.readCov_unit_zero (S := S1024x1) _ hz inb_S1024x1_S1024x1_0_0 _)) (View.readCov_unit_zero (S := S1024x1) _ hz inb_S1024x1_S1024x1_0_0 _)) (View.readCov_unit_zero (S := S1024x1) _ hz inb_S1024x1_S1024x1_0_0 _)
  isplitl [HS0]
  · iexists _; isplitr; swap; · iexact HS0
    ipureintro
    sl_unfold_words
    rw [View.read_writes_eq_canon _ _ _ (fun y => ⟨_, List.mem_singleton_self _, View.mem_set_unit_zero hz inb_S1024x1_S1024x1_0_0 y⟩), View.canon_unit_zero hz]
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  isplitl [HS1]
  · iexists _; isplitr; swap; · iexact HS1
    ipureintro
    sl_unfold_words
    rw [View.read_writes_eq_canon _ _ _ (fun y => ⟨_, List.mem_singleton_self _, View.mem_set_unit_zero hz inb_S1024x1_S1024x1_0_0 y⟩), View.canon_unit_zero hz]
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]
  · iexists _; isplitr; swap; · iexact HS2
    ipureintro
    sl_unfold_words
    rw [View.read_writes_eq_canon _ _ _ (fun y => ⟨_, List.mem_singleton_self _, View.mem_set_unit_zero hz inb_S1024x1_S1024x1_0_0 y⟩), View.canon_unit_zero hz]
    simp only [View.readAt_eq_ld, harg7.read_unread, harg8.read_unread, harg9.read_unread, harg2.read_unread, harg3.read_unread, harg4.read_unread, harg5.read_unread, View.ld_unit_zero (S := S1024x1) hz, View.ld_unit_zero (S := S1024x128) hz, View.ld_unit_zero (S := S512x128) hz, View.ld_unit_zero (S := S1x512) hz]

end Cert.Kernel.Hand

end
-- ==== Proof.WBody.lean ====
import proofs.«173541_j78228534329348_1_alg».proof.Proof.WRuns
import proofs.«173541_j78228534329348_1_alg».proof.Proof.WData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, nothing owed, and the five windows' buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point. The inputs' buffers hold their blocks; the column block's position says which of the
    three cases the point is in; the invariant hands the body the scratch buffers at the running sums the point
    before left (at anything where they are about to be cleared) and takes them back at this point's sums; at the
    last column block the output buffer is left at the row losses, elsewhere as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  by_cases h0 : t.val % 16 = 0
  · have hc0 : condFirst (grid0.coords t) := (hcondFirst t).mpr h0
    have hc1 : ¬condLast (grid0.coords t) := fun h => by have := (hcondLast t).mp h; omega
    rw [Dat.leavesExact_idle (dats m 0 c) 4 t (idle4 t hc1) (noFlush4 t hc1)]
    rw [accAt_first m c t h0]; unfold stepAcc zeroAcc; (try dsimp only)
    iintro ⟨HP, Ho, ⟨%d0, H0⟩, ⟨%d1, H1⟩, ⟨%d2, H2⟩, ⟨%d3, H3⟩, ⟨%d4, H4⟩⟩
    ihave HP' := (PhiS_any m c _ _) $$ HP
    icases HP' with ⟨HS0, HS1, HS2⟩
    iapply (runFirst c (grid0.coords t) _ _ _ _ _ _ _ _ _ _ _ _ _ _ _ _ hc0 hc1 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexists d4; iexact H4
  · have hc0 : ¬condFirst (grid0.coords t) := fun h => h0 ((hcondFirst t).mp h)
    have hz0 : t.val ≠ 0 := fun h => h0 (by rw [h])
    rw [accAt_next m c t h0]; unfold stepAcc; (try dsimp only)
    rw [PhiS_pos m c _ _ hz0]
    by_cases h1 : t.val % 16 = 15
    · have hc1 : condLast (grid0.coords t) := (hcondLast t).mpr h1
      rw [show (dats m 0 c).leavesExact 4 t = owns (c : Thread nD τ) (ms4 t) fullShare ((dats m 0 c).after 4 t) from by
        unfold Dat.leavesExact; rw [live4 t hc1], after4]
      unfold outAt; rw [accAt_next m c t h0]; unfold stepAcc; (try dsimp only)
      iintro ⟨⟨HS0, HS1, HS2⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ _ _ hc0 hc1 (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · have hc1 : ¬condLast (grid0.coords t) := fun h => h1 ((hcondLast t).mp h)
      rw [Dat.leavesExact_idle (dats m 0 c) 4 t (idle4 t hc1) (noFlush4 t hc1)]
      iintro ⟨⟨HS0, HS1, HS2⟩, Ho, ⟨%d0, H0⟩, ⟨%d1, H1⟩, ⟨%d2, H2⟩, ⟨%d3, H3⟩, ⟨%d4, H4⟩⟩
      iapply (runMid c (grid0.coords t) _ _ _ _ _ _ _ _ _ _ _ _ _ _ _ _ hc0 hc1 (iblk m c 0 t) (iblk m c 1 t) (iblk m c 2 t) (iblk m c 3 t) ((dats m 0 c).before 4 t d4) _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.lean ====
/-
  A contrastive loss over L2-normalised embeddings, tiled: for embeddings x : f32[8192, 128] and labels lab : i32[8192]
  the kernel walks an 8 x 16 grid of (row block of 1024, column block of 512); at each point it normalises the two
  blocks' rows by the reciprocal square root of their sums of squares, forms the 1024 x 512 block of similarities
  sim r c = ∑ d, e r d * e c d, and adds three lane sums to running row sums kept across the column blocks of one
  row block: the exponentials off the diagonal, the similarities of the equally labelled off-diagonal pairs, and the
  number of such pairs. At the last column block it writes the row loss 0 - (possum - cnt * log denom). The host
  then averages the losses of the rows labelled 0 and adds the sum of the others.
  The reference computes the same from the whole 8192 x 8192 similarity matrix, dividing by the square root of the
  row norm where the kernel multiplies by its reciprocal: on a row whose sum of squares is positive these agree
  (a * s^(-1/2) = a / sqrt s), which the precondition states for every row; a sum over sixteen blocks of 512
  columns is the sum over the 8192 columns; the integer count converted to a float is the float sum of the
  converted bits (8192 terms, no wrap-around); and 0 - y = -y. So both programs end with one function of the
  arguments (the common last operations applied to one vector of row losses).
  The two kernel programs' frames: the pipeline's proof data name what each window's buffer holds after every
  point (the inputs' blocks; the three running sums in the scratch buffers as the region's invariant, cleared at
  the first column block of each row block; the row losses in the output block at the last), the body is run in
  each of its three cases, and @main is taken as the list host operations, region, host operations. The two
  windows onto the embeddings share that array: each holds half of its share during the region.
-/
import proofs.«173541_j78228534329348_1_alg».proof.Defs
import proofs.«173541_j78228534329348_1_alg».proof.Proof.Gen.Kernel
import proofs.«173541_j78228534329348_1_alg».proof.Proof.Gen.Kernel.Skeleton
import proofs.«173541_j78228534329348_1_alg».proof.Proof.Gen.Kernel.Launch
import proofs.«173541_j78228534329348_1_alg».proof.Proof.Gen.Kernel.Points
import proofs.«173541_j78228534329348_1_alg».proof.Proof.Gen.KernelIdeal
import proofs.«173541_j78228534329348_1_alg».proof.Proof.Gen.KernelIdeal.Skeleton
import proofs.«173541_j78228534329348_1_alg».proof.Proof.Gen.KernelIdeal.Launch
import proofs.«173541_j78228534329348_1_alg».proof.Proof.Gen.KernelIdeal.Points
import proofs.«173541_j78228534329348_1_alg».proof.Proof.Gen.ReferenceIdeal
import proofs.«173541_j78228534329348_1_alg».proof.Proof.Gen.Pre_finite_inputs
import proofs.«173541_j78228534329348_1_alg».proof.Proof.Gen.ReferenceIdeal.Run
import proofs.«173541_j78228534329348_1_alg».proof.Proof.Gen.ReferenceIdeal.Read
import proofs.«173541_j78228534329348_1_alg».proof.Proof.PreFacts
import proofs.«173541_j78228534329348_1_alg».proof.Proof.Bridge
import proofs.«173541_j78228534329348_1_alg».proof.Proof.KLaunch
import proofs.«173541_j78228534329348_1_alg».proof.Proof.KBody
import proofs.«173541_j78228534329348_1_alg».proof.Proof.KValue
import proofs.«173541_j78228534329348_1_alg».proof.Proof.KTail
import proofs.«173541_j78228534329348_1_alg».proof.Proof.WLaunch
import proofs.«173541_j78228534329348_1_alg».proof.Proof.WBody
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ =>
  (θ_run Cert.Kernel.defs _ _).mono (fun _ h c => ⟨(h c).2.1, (h c).2.2⟩)
    (Cert.Kernel.Hand.run_main (F := Bits) m ρ (Cert.Kernel.Hand.body_obligation m))

/-- So does the idealized kernel. -/
theorem frame_ki : Cert.frame_KernelIdeal := fun m ρ _ =>
  (θ_run Cert.KernelIdeal.defs _ _).mono (fun _ h c => ⟨(h c).2.1, (h c).2.2⟩)
    (Cert.KernelIdeal.Hand.run_main (F := Ideal) m ρ (Cert.KernelIdeal.Hand.body_obligation m))

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the common last operations applied to the
    vector of row losses: the kernel's by blocks, the reference's from the whole matrix, equal row by row because
    every row's sum of squares is positive. -/
theorem algebraic : Cert.algebraic_KernelIdeal_ReferenceIdeal := by
  intro m ρ m' ρ' hpre hagree
  refine ⟨fun c => Cert.KernelIdeal.Hand.Vfin m c (Proc.devRef .tc Cert.KernelIdeal.main_v14),
    Cert.KernelIdeal.Hand.run_main (F := Ideal) m ρ (Cert.KernelIdeal.Hand.body_obligation m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefSide.result_eq m' c, (hagree c).1, (hagree c).2]
  refine (Cert.KernelIdeal.KTail.result_eq_tail m c _ fun r => ?_).symm
  exact (Cert.KernelIdeal.KVal.arr_loss m c r).trans
    (Cert.Bridge.lossK_eq_of_pos _ _ (fun r' => Cert.PreFacts.row_pos' _ _ (hpre c) r') r)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
